-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S512x8192 : Shape := ⟨2, ![512, 8192]⟩
abbrev S512x128 : Shape := ⟨2, ![512, 128]⟩
abbrev S512x1 : Shape := ⟨2, ![512, 1]⟩
abbrev S512x1024 : Shape := ⟨2, ![512, 1024]⟩
abbrev S512 : Shape := ⟨1, ![512]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 9
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S8192x128, .f32⟩
  | .hbm, ⟨6, _⟩ => ⟨S128x128, .f32⟩
  | .hbm, ⟨7, _⟩ => ⟨S1x128, .f32⟩
  | .hbm, ⟨8, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1024x2048, .f32⟩
  | .local _ .vmem, ⟨9, _⟩ => ⟨S1024x2048, .f32⟩
  | .local _ .vmem, ⟨10, _⟩ => ⟨S2048x128, .f32⟩
  | .local _ .vmem, ⟨11, _⟩ => ⟨S2048x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S128x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S512x8192_S512x1024_0_0 : ∀ a, (![0, 0] : Fin 2 → Nat) a + S512x1024.size a ≤ S512x8192.size a
  h_S512x1024 : 0 < S512x1024.numel
  reduces_S512x1024_S512 : S512x1024.Reduces [1] S512
  shapeCasts_S512_S512x1 : S512.ShapeCasts S512x1
  inb_S512x8192_S512x1024_0_1024 : ∀ a, (![0, 1024] : Fin 2 → Nat) a + S512x1024.size a ≤ S512x8192.size a
  inb_S512x8192_S512x1024_0_2048 : ∀ a, (![0, 2048] : Fin 2 → Nat) a + S512x1024.size a ≤ S512x8192.size a
  inb_S512x8192_S512x1024_0_3072 : ∀ a, (![0, 3072] : Fin 2 → Nat) a + S512x1024.size a ≤ S512x8192.size a
  inb_S512x8192_S512x1024_0_4096 : ∀ a, (![0, 4096] : Fin 2 → Nat) a + S512x1024.size a ≤ S512x8192.size a
  inb_S512x8192_S512x1024_0_5120 : ∀ a, (![0, 5120] : Fin 2 → Nat) a + S512x1024.size a ≤ S512x8192.size a
  inb_S512x8192_S512x1024_0_6144 : ∀ a, (![0, 6144] : Fin 2 → Nat) a + S512x1024.size a ≤ S512x8192.size a
  inb_S512x8192_S512x1024_0_7168 : ∀ a, (![0, 7168] : Fin 2 → Nat) a + S512x1024.size a ≤ S512x8192.size a
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x128, .f32⟩
  | .hbm, ⟨32, _⟩ => ⟨S128x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KBody0.lean ====
/-
  REGION 0 of the program's run: the first pipeline (the degree kernel) on its grid of 16 row blocks, stated at the
  buffer contents the region is entered with.

  Per point the body reads the adjacency block in eight column rectangles and the feature block whole, and stores one
  whole rectangle into each of its two output buffers; neither stored value depends on what an output buffer held. So
  the proof data is: each input buffer at its block; the first output at the scaled feature block, the second at the
  scale column spread over the lanes, each written as the canonical contents of its single whole store.
-/
import proofs.«104426_j28389733827054_2_alg».proof.Proof.Gen.Kernel.Launch
import proofs.«104426_j28389733827054_2_alg».proof.Proof.Gen.Kernel.Skeleton
import proofs.«104426_j28389733827054_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The eight column rectangles of the adjacency block, 1024 lanes each. -/
abbrev rA0 : Rect S512x8192 := Rect.unit (s := S512x8192) ![0, 0] S512x1024.size inb_S512x8192_S512x1024_0_0
abbrev rA1 : Rect S512x8192 := Rect.unit (s := S512x8192) ![0, 1024] S512x1024.size inb_S512x8192_S512x1024_0_1024
abbrev rA2 : Rect S512x8192 := Rect.unit (s := S512x8192) ![0, 2048] S512x1024.size inb_S512x8192_S512x1024_0_2048
abbrev rA3 : Rect S512x8192 := Rect.unit (s := S512x8192) ![0, 3072] S512x1024.size inb_S512x8192_S512x1024_0_3072
abbrev rA4 : Rect S512x8192 := Rect.unit (s := S512x8192) ![0, 4096] S512x1024.size inb_S512x8192_S512x1024_0_4096
abbrev rA5 : Rect S512x8192 := Rect.unit (s := S512x8192) ![0, 5120] S512x1024.size inb_S512x8192_S512x1024_0_5120
abbrev rA6 : Rect S512x8192 := Rect.unit (s := S512x8192) ![0, 6144] S512x1024.size inb_S512x8192_S512x1024_0_6144
abbrev rA7 : Rect S512x8192 := Rect.unit (s := S512x8192) ![0, 7168] S512x1024.size inb_S512x8192_S512x1024_0_7168
/-- The whole rectangle of a feature-shaped buffer. -/
abbrev rX : Rect S512x128 := Rect.unit (s := S512x128) ![0, 0] S512x128.size inb_S512x128_S512x128_0_0

/-! ## What the body leaves in each output window's buffer -/

/-- The row sums of the adjacency block as the body forms them: the eight rectangles' lane sums added from the left. -/
def rowsum0 (a : Vec F S512x8192 .f32) : FVec F S512x1 .f32 :=
  k0_pay3 (View.ld a rA0) (View.ld a rA1) (View.ld a rA2) (View.ld a rA3) (View.ld a rA4) (View.ld a rA5) (View.ld a rA6) (View.ld a rA7)

/-- The literal one the body adds to the row sums. -/
def one0 : F .f32 := Scalar.ofBits .f32 0x3F800000#32

/-- Window 2's staging buffer after the body, from the two input blocks: its single whole store. -/
def out0_2 (a : Vec F S512x8192 .f32) (x : Vec F S512x128 .f32) : Vec F S512x128 .f32 :=
  View.canon [⟨rX, k0_pay2 (rowsum0 a) one0 (View.ld x rX)⟩]

/-- Window 3's staging buffer after the body, from the adjacency block: its single whole store. -/
def out0_3 (a : Vec F S512x8192 .f32) : Vec F S512x128 .f32 :=
  View.canon [⟨rX, k0_pay1 (rowsum0 a) one0⟩]

/-- A single whole store tiles the buffer, so it covers it. -/
theorem cover0_X (p0 : Vec F S512x128 .f32) (y : S512x128.Idx) :
    ∃ pc ∈ ([⟨rX, p0⟩] : List (View.Piece (Elt F) S512x128 .f32)), y ∈ pc.1.set :=
  View.cover_of_tiled [⟨rX, p0⟩] S512x128.size (by rfl) y

/-! ## The body's triple -/

set_option maxHeartbeats 1000000 in
/-- The kernel body on whole staging memrefs, the inputs' at read contents and the outputs' at anything, runs to the
    continuation holding the inputs' as they were and each output's at its canonical contents. -/
theorem sound_kernel0 (c : Dev nD) (E : Set ℕ) (i : grid0.Coords)
    (arg1 : Memref sig .tc .vmem S512x8192 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S512x128 .f32) (harg4 : arg4.IsWhole)
    (x0 : Vec F S512x8192 .f32) (x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_X _)
  iexists _; isplitr
  swap; · iexact H3
  ipureintro
  exact View.read_writes_eq_canon _ _ _ (cover0_X _)

/-! ## The pipeline's proof data -/

/-- The proof data of the first pipeline on core c: the arrays as the region finds them; after the body at point t each
    input's buffer at its block and each output's at its canonical contents of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg0

end
-- ==== Proof.KRuns1.lean ====
/-
  The second kernel (the aggregation and the dense layer) at one grid point (i, k), k the position among the four runs of
  2048 columns: what is common to its three control cases. At k = 0 the row block's own scaled features are put into the
  output block; at every k the product of the adjacency block with the k-th block of scaled features is added to the
  output block; at k = 3 the output block is scaled row by row, multiplied by the transposed weights and the bias added.
  Here: each window's block at a point, that an input window's buffer holds its block whether fetched at the point or
  not, and the two conditions in closed form over the 32 points (k = point mod 4).
-/
import proofs.«104426_j28389733827054_2_alg».proof.Proof.Gen.Kernel.Launch
import proofs.«104426_j28389733827054_2_alg».proof.Proof.Gen.Kernel.Skeleton
import proofs.«104426_j28389733827054_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched the
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched the
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched the
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched the
    block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched the
    block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not fetched the
    block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-- "k = 0": the first conditional's condition, from the grid coordinates. -/
abbrev cond1_0 (i : grid1.Coords) : Prop := (Scalar.cmpi .ne (Scalar.extui (Scalar.cmpi .eq (BitVec.ofNat 32 (i 1).val) 0#32)) 0#32) = 1#1
/-- "k = 3": the second conditional's condition. -/
abbrev cond1_1 (i : grid1.Coords) : Prop := (Scalar.cmpi .ne (Scalar.extui (Scalar.cmpi .eq (BitVec.ofNat 32 (i 1).val) 3#32)) 0#32) = 1#1
/-- The points with k = 0 are those ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
/-- The points with k = 3 are those ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- One buffer of the output window, through which its contents are stated (the choice does not matter). -/
abbrev VO1_6 : View sig .tc .vmem S1024x128 .f32 := (Memref.whole cc1_stg6_0 : Memref sig .tc .vmem S1024x128 .f32).view
/-- Each window's current buffer at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

end Cert.Kernel.Reg1

end
-- ==== Proof.KRun1A.lean ====
/-
  The second kernel's body in the case k = 0: the output block is first set to the row block's own scaled features, then
  gains the product of the adjacency block with the first block of scaled features.
-/
import proofs.«104426_j28389733827054_2_alg».proof.Proof.KRuns1
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output buffer, as pieces (last first), in the case where only the first
    conditional is taken, with the proof that on whole buffers — the inputs' at their contents, the output's at anything —
    the body runs to the continuation holding the inputs' as they were and the output's with the pieces written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Reg1

end
-- ==== Proof.KRun1B.lean ====
/-
  The second kernel's body in the case 0 < k < 3: the output block, at what the point before left in it, gains the product
  of the adjacency block with the block of scaled features.
-/
import proofs.«104426_j28389733827054_2_alg».proof.Proof.KRuns1
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's store leaves in the output buffer, as pieces, in the case where neither conditional is taken, with the
    proof that on whole buffers — the inputs' at their contents, the output's at its running contents `xo` — the body runs
    to the continuation holding the inputs' as they were and the output's with the pieces written. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Reg1

end
-- ==== Proof.KRun1C.lean ====
/-
  The second kernel's body in the case k = 3: the output block, at what the point before left in it, gains the last
  product; the total is then scaled row by row, multiplied by the transposed weights, and the bias is added.
-/
import proofs.«104426_j28389733827054_2_alg».proof.Proof.KRuns1
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output buffer, as pieces (last first), in the case where only the second
    conditional is taken, with the proof that on whole buffers — the inputs' at their contents, the output's at its running
    contents `xo` — the body runs to the continuation holding the inputs' as they were and the output's with the pieces
    written. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Reg1

end
-- ==== Proof.KBody1.lean ====
/-
  The second kernel over its 32 grid points (point = 4 i + k): what the output window's buffer holds after each point, by
  recursion on the point — at k = 0 the first case's result, at 0 < k < 3 and at k = 3 the later cases' results over what
  the point before left (the buffer is written back only after k = 3) —, the proof data of the pipeline, and the body
  obligation at every point.
-/
import proofs.«104426_j28389733827054_2_alg».proof.Proof.KRun1A
import proofs.«104426_j28389733827054_2_alg».proof.Proof.KRun1B
import proofs.«104426_j28389733827054_2_alg».proof.Proof.KRun1C
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case k = 0: the two stores are of the whole buffer, so they cover it. -/
theorem cover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 hc0 hc1 x0 x1 x2 x3 x4 x5).1, y ∈ pc.1.set :=
  View.cover_of_tiledL (kernelRun1_A c i arg2 harg2 arg3 harg3 arg4 harg4 arg5 harg5 arg6 harg6 arg7 harg7 arg8 harg8 hc0 hc1 x0 x1 x2 x3 x4 x5).1 S1024x128.size (by sl_kernel_rfl) y

/-- What case k = 0 leaves in the output buffer: its pieces read back. -/
def out1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) : Vec F S1024x128 .f32 :=
  VO1_6.read (Elt F) (VO1_6.writes (Elt F) VO1_6.junk (kernelRun1_A c i arg2 harg2 arg3 harg3 arg4 harg4 arg5 harg5 arg6 harg6 arg7 harg7 arg8 harg8 hc0 hc1 x0 x1 x2 x3 x4 x5).1)

/-- Case 0 < k < 3: the store is of the whole buffer. -/
theorem cover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 x5 xo).1, y ∈ pc.1.set :=
  View.cover_of_tiledL (kernelRun1_B c i arg2 harg2 arg3 harg3 arg4 harg4 arg5 harg5 arg6 harg6 arg7 harg7 arg8 harg8 hc0 hc1 x0 x1 x2 x3 x4 x5 xo).1 S1024x128.size (by sl_kernel_rfl) y

/-- What case 0 < k < 3 leaves in the output buffer. -/
def out1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 hc0 hc1 x0 x1 x2 x3 x4 x5 xo).1)

/-- Case k = 3: the two stores are of the whole buffer. -/
theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 x5 xo).1, y ∈ pc.1.set :=
  View.cover_of_tiledL (kernelRun1_C c i arg2 harg2 arg3 harg3 arg4 harg4 arg5 harg5 arg6 harg6 arg7 harg7 arg8 harg8 hc0 hc1 x0 x1 x2 x3 x4 x5 xo).1 S1024x128.size (by sl_kernel_rfl) y

/-- What case k = 3 leaves in the output buffer. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 hc0 hc1 x0 x1 x2 x3 x4 x5 xo).1)

variable (V : (c : Dev nD) → (b : Ref sig .tc) → Buf (Elt F) ((c : Thread nD τ).loc b))

/-! ## What the output buffer holds after each point -/

/-- The accumulation: the output window's buffer after the body at position `n`. -/
def outsAt1 (c : Dev nD) : (n : ℕ) → n < cfg1.N → Vec F S1024x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (fun h => absurd ((hcond1_1 ⟨0, hn⟩).mp h) (show ¬ (0 % 4 = 3) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 4 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (fun h => absurd ((hcond1_1 ⟨n + 1, hn⟩).mp h) (show ¬ ((n + 1) % 4 = 3) by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else if h3 : (n + 1) % 4 = 3 then
      out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn))
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (fun h => h3 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn))

/-- At a point with k = 0. -/
theorem outsAt1_A (c : Dev nD) (t : Fin cfg1.N) (h0 : t.val % 4 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (fun h => absurd ((hcond1_1 t).mp h) (by omega)) (iblk1 V c 0 t) (iblk1 V c 1 t) (iblk1 V c 2 t) (iblk1 V c 3 t) (iblk1 V c 4 t) (iblk1 V c 5 t) := by
  obtain ⟨n, hn⟩ := t
  cases n with
  | zero => exact rfl
  | succ n => exact (dif_pos h0).trans rfl

/-- At a point with 0 < k < 3: over what the point before left. -/
theorem outsAt1_B (c : Dev nD) (t : Fin cfg1.N) (h0 : ¬t.val % 4 = 0) (h3 : ¬t.val % 4 = 3) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (fun h => h3 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- At a point with k = 3: over what the point before left. -/
theorem outsAt1_C (c : Dev nD) (t : Fin cfg1.N) (h0 : ¬t.val % 4 = 0) (h3 : t.val % 4 = 3) :
    outsAt1 V c t.val t.isLt = out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h3) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-! ## The pipeline's proof data -/

/-- The proof data of the second pipeline on core `c`: the arrays as the region finds them; after the body at point `t`
    each input's buffer at its block and the output's at `outsAt1`; the invariant the scoped rest and the generator
    register, untouched; nothing owed; the array read through two windows held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t.val t.isLt
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- At a point with k ≠ 0 the output window's buffer holds what the body left at the point before: it is not the first
    point and the buffer was not written back in between (that happens after k = 3 only). -/
theorem before1_6_kept (c : Dev nD) (t : Fin cfg1.N) (h0 : ¬t.val % 4 = 0) (d) :
    (dat1 V c).before 6 t d = outsAt1 V c (t.val - 1) (Nat.lt_of_le_of_lt (Nat.sub_le _ _) t.isLt) := by
  have hN : t.val < 32 := lt_of_lt_of_eq t.isLt (show cfg1.N = 32 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' buffers hold their blocks; the closed forms say which case the point is in; at
    k ≠ 0 the output's buffer holds what the point before left; so that case's run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 32 := lt_of_lt_of_eq t.isLt (show cfg1.N = 32 from N_1)
  by_cases h0 : t.val % 4 = 0
  · rw [outsAt1_A V c t h0]
    unfold out1_A
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_A c _ _ _ _ _ _ _ _ _ _ _ _ _ _ _ _ _ _ _ _ _ _ _)
  · by_cases h3 : t.val % 4 = 3
    · rw [outsAt1_C V c t h0 h3]
      simp only [before1_6_kept V c t h0]
      unfold out1_C
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ (fun h => h0 ((hcond1_0 t).mp h)) ((hcond1_1 t).mpr h3) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _)
    · rw [outsAt1_B V c t h0 h3]
      simp only [before1_6_kept V c t h0]
      unfold out1_B
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ (fun h => h0 ((hcond1_0 t).mp h)) (fun h => h3 ((hcond1_1 t).mp h)) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_B c _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg1

end
-- ==== Proof.KShare1.lean ====
/-
  The second pipeline reads one array — the scaled features the first kernel left — through two windows (a block of rows
  for the products, another for the self loop). The buffers behind the seven windows' arrays are six; held whole they are
  the pipeline's arrays with the shared buffer's share halved between its two windows, and back.
-/
import proofs.«104426_j28389733827054_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six buffers behind the second pipeline's arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg1) ↦{fullShare} Vc main_arg1) ∗ (((c : Thread nD τ).loc main_v0_0) ↦{fullShare} Vc main_v0_0)
          ∗ (((c : Thread nD τ).loc main_v0_1) ↦{fullShare} Vc main_v0_1) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold Pipeline.arrBufs
  exact bigSep_eq_bigSepL_of_eq [main_arg1, main_v0_0, main_v0_1, main_v1, main_v2, main_v3] (by decide) (by decide) _

/-- The pipeline's arrays, window by window, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg1) ↦{fullShare} G 0) ∗ (((c : Thread nD τ).loc main_v0_0) ↦{fullShare.left} G 1)
          ∗ (((c : Thread nD τ).loc main_v0_0) ↦{fullShare.right} G 2) ∗ (((c : Thread nD τ).loc main_v0_1) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ]
  rfl

/-- ENTRY: a core's unscoped buffers at contents `V c` are the second pipeline's arrays at the proof data's entry
    contents — the shared buffer's share halved between its two windows — and the unscoped rest. -/
theorem arrays_of_bufs1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  show (Pipeline.arrBufs (Ix := Unit) (Name := ℕ) (U := UR sig nD τ) (Lvl := ℕ) spec1 c (V c) : sProp 𝕄) ⊢ _
  rw [arrBufs1_eq, arrays1_eq]
  simp only [show ∀ w, (dat1 V c).arrAt w 0 = (dat1 V c).A w from fun _ => rfl, A_eq1]
  iintro ⟨HA, HY, HD, HW, HB, HO⟩
  ihave HY2 := (pointsTo_share (PosShare.mem_left_op_right fullShare)).1 $$ HY
  icases HY2 with ⟨HYl, HYr⟩
  isplitl [HA]; · iexact HA
  isplitl [HYl]; · iexact HYl
  isplitl [HYr]; · iexact HYr
  isplitl [HD]; · iexact HD
  isplitl [HW]; · iexact HW
  isplitl [HB]; · iexact HB
  iexact HO

/-- EXIT: the second pipeline's arrays at contents `G` and the unscoped rest at `V c` are the core's unscoped buffers at
    any contents `V'` that have the arrays at `G` and agree with `V c` off them: the two halves of the shared buffer,
    holding the same contents, join. -/
theorem bufs_of_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs (Ix := Unit) (Name := ℕ) (U := UR sig nD τ) (Lvl := ℕ) spec1 c V' : sProp 𝕄)
    rw [arrBufs1_eq, arrays1_eq, hG 0, hG 1, hG 2, hG 3, hG 4, hG 5, hG 6]
    iintro ⟨HA, HYl, HYr, HD, HW, HB, HO⟩
    ihave HY := (pointsTo_share (PosShare.mem_left_op_right fullShare)).2 $$ [HYl HYr]
    · isplitl [HYl]; · iexact HYl
      iexact HYr
    isplitl [HA]; · iexact HA
    isplitl [HY]; · iexact HY
    isplitl [HD]; · iexact HD
    isplitl [HW]; · iexact HW
    isplitl [HB]; · iexact HB
    iexact HO
  · unfold Pipeline.unscopedRest
    exact bigSep_congr fun b hb => by rw [hrest b (Finset.mem_sdiff.mp hb).2]

end Cert.Kernel.Reg1

end
-- ==== Proof.KRun.lean ====
/-
  The whole program: the first kernel's region, two host operations (the weights transposed, the bias made a row), the
  second kernel's region. The buffers' contents at each boundary are a fold from the launch memory: the first region
  leaves its two result arrays at what its write-backs make of them, the host operations write two more buffers, the
  second region leaves its one result array likewise and nothing else changed. Every weakly fair execution runs through
  the three segments to the end, and the final memory holds every unscoped buffer at the last boundary's contents.
-/
import proofs.«104426_j28389733827054_2_alg».proof.Proof.KBody0
import proofs.«104426_j28389733827054_2_alg».proof.Proof.KShare1
import proofs.«104426_j28389733827054_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RunM

open Cert.Kernel Cert.Kernel.Gen Cert.Kernel.Reg0 Cert.Kernel.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: the first region's entry. -/
abbrev W0 : Dev nD → Valuation τ sig (Elt F) := fun c b => m ((c : Dev nD), b)
abbrev VE0 : (c : Dev nD) → (b : Ref sig .tc) → Buf (Elt F) ((c : Thread nD τ).loc b) := fun c b => W0 m c b
/-- At the first region's exit: its arrays at what the pipeline leaves, every other buffer as entered. -/
def W2 (c : Dev nD) : Valuation τ sig (Elt F) :=
  Pipeline.withArrays spec0 c (W0 m c) fun w => (dat0 (VE0 m) c).arrAt w cfg0.N
theorem W2_arr (c : Dev nD) (w : Fin cfg0.W) :
    W2 m c (Proc.devRef .tc (Pipeline.arrRef spec0 w)) = (dat0 (VE0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev VE2 : (c : Dev nD) → (b : Ref sig .tc) → Buf (Elt F) ((c : Thread nD τ).loc b) := fun c b => W2 m c b
theorem hF0 (c : Dev nD) (w : Fin cfg0.W) : (dat0 (VE0 m) c).arrAt w cfg0.N = VE2 m c (Pipeline.arrRef spec0 w) :=
  (W2_arr m c w).symm
theorem hrest0 (c : Dev nD) : ∀ b, b ∉ Finset.univ.image (Pipeline.arrRef spec0) → VE2 m c b = VE0 m c b :=
  fun b hb => W2_of_ne m c b fun w e => hb (Finset.mem_image.mpr ⟨w, Finset.mem_univ _, e⟩)

/-- After the two host operations: the second region's entry. -/
abbrev W3 : Dev nD → Valuation τ sig (Elt F) := fun c => StableHlo.after hostOps1 (W2 m c)
abbrev VE1 : (c : Dev nD) → (b : Ref sig .tc) → Buf (Elt F) ((c : Thread nD τ).loc b) := fun c b => W3 m c b
/-- At the second region's exit: its result array at what the pipeline leaves, every other buffer as entered. -/
def W4 (c : Dev nD) : Valuation τ sig (Elt F) :=
  Function.update (W3 m c) main_v3 ((dat1 (VE1 m) c).arrAt 6 cfg1.N)
theorem W4_main_v3 (c : Dev nD) : W4 m c (Proc.devRef .tc main_v3) = (dat1 (VE1 m) c).arrAt 6 cfg1.N := by
  unfold W4; exact Function.update_self _ _ _
theorem W4_of_ne (c : Dev nD) (b : Ref sig .tc) (hb : b ≠ main_v3) :
    W4 m c (Proc.devRef .tc b) = W3 m c (Proc.devRef .tc b) := by
  unfold W4
  exact Function.update_of_ne (StableHlo.devRef_ne_of_ne hb : (Proc.devRef .tc b : DevRef τ sig) ≠ Proc.devRef .tc main_v3) _ _
abbrev VE4 : (c : Dev nD) → (b : Ref sig .tc) → Buf (Elt F) ((c : Thread nD τ).loc b) := fun c b => W4 m c b
theorem hF1 (c : Dev nD) (w : Fin cfg1.W) : (dat1 (VE1 m) c).arrAt w cfg1.N = VE4 m c (Pipeline.arrRef spec1 w) := by
  match w with
  | ⟨0, _⟩ => exact (((dat1 (VE1 m) c).arrAt_in 0 rfl _).trans (A_eq1 (VE1 m) c 0)).trans (W4_of_ne m c main_arg1 (by decide)).symm
  | ⟨1, _⟩ => exact (((dat1 (VE1 m) c).arrAt_in 1 rfl _).trans (A_eq1 (VE1 m) c 1)).trans (W4_of_ne m c main_v0_0 (by decide)).symm
  | ⟨2, _⟩ => exact (((dat1 (VE1 m) c).arrAt_in 2 rfl _).trans (A_eq1 (VE1 m) c 2)).trans (W4_of_ne m c main_v0_0 (by decide)).symm
  | ⟨3, _⟩ => exact (((dat1 (VE1 m) c).arrAt_in 3 rfl _).trans (A_eq1 (VE1 m) c 3)).trans (W4_of_ne m c main_v0_1 (by decide)).symm
  | ⟨4, _⟩ => exact (((dat1 (VE1 m) c).arrAt_in 4 rfl _).trans (A_eq1 (VE1 m) c 4)).trans (W4_of_ne m c main_v1 (by decide)).symm
  | ⟨5, _⟩ => exact (((dat1 (VE1 m) c).arrAt_in 5 rfl _).trans (A_eq1 (VE1 m) c 5)).trans (W4_of_ne m c main_v2 (by decide)).symm
  | ⟨6, _⟩ => exact (W4_main_v3 m c).symm
theorem hrest1 (c : Dev nD) : ∀ b, b ∉ Finset.univ.image (Pipeline.arrRef spec1) → VE4 m c b = VE1 m c b :=
  fun b hb => W4_of_ne m c b fun e => hb (Finset.mem_image.mpr ⟨6, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit : (unscopedBufs c (VE1 m c) : sProp 𝕄)
        ⊢ iprop((pdats m 1 c).arrays ((pdats m 1 c).arrAt · 0) ∗ Pipeline.unscopedRest spec1 c (VE1 m c)) := arrays_of_bufs1 (VE1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VE1 m c))
        ⊢ (unscopedBufs c (VE4 m c) : sProp 𝕄) :=
      bufs_of_arrays1 (VE1 m) c (VE4 m c) ((dat1 (VE1 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.RunM

end
-- ==== Proof.KArgs.lean ====
/-
  The four argument arrays at the end of the program are what they were at launch. No host operation writes one of
  them; the first region reads two of them through input windows, whose arrays it leaves as it found them, and does not
  touch the other two; the second region changes its one result array only.
-/
import proofs.«104426_j28389733827054_2_alg».proof.Proof.KRun

noncomputable section

namespace Cert.Kernel.RunM

open Cert.Kernel Cert.Kernel.Gen Cert.Kernel.Reg0 Cert.Kernel.Reg1
open Idealize.ShloMosaic Idealize.ShloMosaic.TcCoe Idealize.SL.Sem

variable {F : FTy → Type} [FloatOps F]
variable (m : (ℓ : Loc nD τ sig) → Buf (Elt F) ℓ)

/-- A buffer the two host operations do not write is, after them, what the first region left. -/
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h

/-! ## After the first region -/

theorem W2_main_arg1 (c : Dev nD) : W2 m c (Proc.devRef .tc main_arg1) = m ((c : Thread nD τ).loc main_arg1) :=
  (W2_arr m c 0).trans <| ((dat0 (VE0 m) c).arrAt_in 0 rfl _).trans (A_eq0 (VE0 m) c 0)
theorem W2_main_arg0 (c : Dev nD) : W2 m c (Proc.devRef .tc main_arg0) = m ((c : Thread nD τ).loc main_arg0) :=
  (W2_arr m c 1).trans <| ((dat0 (VE0 m) c).arrAt_in 1 rfl _).trans (A_eq0 (VE0 m) c 1)
theorem W2_main_arg2 (c : Dev nD) : W2 m c (Proc.devRef .tc main_arg2) = m ((c : Thread nD τ).loc main_arg2) :=
  W2_of_ne m c main_arg2 (by decide)
theorem W2_main_arg3 (c : Dev nD) : W2 m c (Proc.devRef .tc main_arg3) = m ((c : Thread nD τ).loc main_arg3) :=
  W2_of_ne m c main_arg3 (by decide)

/-! ## After the host operations -/

theorem W3_main_arg0 (c : Dev nD) : W3 m c (Proc.devRef .tc main_arg0) = m ((c : Thread nD τ).loc main_arg0) :=
  (W3_of m c main_arg0 (by decide)).trans (W2_main_arg0 m c)
theorem W3_main_arg1 (c : Dev nD) : W3 m c (Proc.devRef .tc main_arg1) = m ((c : Thread nD τ).loc main_arg1) :=
  (W3_of m c main_arg1 (by decide)).trans (W2_main_arg1 m c)
theorem W3_main_arg2 (c : Dev nD) : W3 m c (Proc.devRef .tc main_arg2) = m ((c : Thread nD τ).loc main_arg2) :=
  (W3_of m c main_arg2 (by decide)).trans (W2_main_arg2 m c)
theorem W3_main_arg3 (c : Dev nD) : W3 m c (Proc.devRef .tc main_arg3) = m ((c : Thread nD τ).loc main_arg3) :=
  (W3_of m c main_arg3 (by decide)).trans (W2_main_arg3 m c)

/-! ## At the end -/

theorem W4_main_arg0 (c : Dev nD) : W4 m c (Proc.devRef .tc main_arg0) = m ((c : Thread nD τ).loc main_arg0) :=
  (W4_of_ne m c main_arg0 (by decide)).trans (W3_main_arg0 m c)
theorem W4_main_arg1 (c : Dev nD) : W4 m c (Proc.devRef .tc main_arg1) = m ((c : Thread nD τ).loc main_arg1) :=
  (W4_of_ne m c main_arg1 (by decide)).trans (W3_main_arg1 m c)
theorem W4_main_arg2 (c : Dev nD) : W4 m c (Proc.devRef .tc main_arg2) = m ((c : Thread nD τ).loc main_arg2) :=
  (W4_of_ne m c main_arg2 (by decide)).trans (W3_main_arg2 m c)
theorem W4_main_arg3 (c : Dev nD) : W4 m c (Proc.devRef .tc main_arg3) = m ((c : Thread nD τ).loc main_arg3) :=
  (W4_of_ne m c main_arg3 (by decide)).trans (W3_main_arg3 m c)

end Cert.Kernel.RunM

end
-- ==== Proof.KIBody0.lean ====
/-
  REGION 0 of the program's run: the first pipeline (the degree kernel) on its grid of 16 row blocks, stated at the
  buffer contents the region is entered with.

  Per point the body reads the adjacency block in eight column rectangles and the feature block whole, and stores one
  whole rectangle into each of its two output buffers; neither stored value depends on what an output buffer held. So
  the proof data is: each input buffer at its block; the first output at the scaled feature block, the second at the
  scale column spread over the lanes, each written as the canonical contents of its single whole store.
-/
import proofs.«104426_j28389733827054_2_alg».proof.Proof.Gen.KernelIdeal.Launch
import proofs.«104426_j28389733827054_2_alg».proof.Proof.Gen.KernelIdeal.Skeleton
import proofs.«104426_j28389733827054_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The eight column rectangles of the adjacency block, 1024 lanes each. -/
abbrev rA0 : Rect S512x8192 := Rect.unit (s := S512x8192) ![0, 0] S512x1024.size inb_S512x8192_S512x1024_0_0
abbrev rA1 : Rect S512x8192 := Rect.unit (s := S512x8192) ![0, 1024] S512x1024.size inb_S512x8192_S512x1024_0_1024
abbrev rA2 : Rect S512x8192 := Rect.unit (s := S512x8192) ![0, 2048] S512x1024.size inb_S512x8192_S512x1024_0_2048
abbrev rA3 : Rect S512x8192 := Rect.unit (s := S512x8192) ![0, 3072] S512x1024.size inb_S512x8192_S512x1024_0_3072
abbrev rA4 : Rect S512x8192 := Rect.unit (s := S512x8192) ![0, 4096] S512x1024.size inb_S512x8192_S512x1024_0_4096
abbrev rA5 : Rect S512x8192 := Rect.unit (s := S512x8192) ![0, 5120] S512x1024.size inb_S512x8192_S512x1024_0_5120
abbrev rA6 : Rect S512x8192 := Rect.unit (s := S512x8192) ![0, 6144] S512x1024.size inb_S512x8192_S512x1024_0_6144
abbrev rA7 : Rect S512x8192 := Rect.unit (s := S512x8192) ![0, 7168] S512x1024.size inb_S512x8192_S512x1024_0_7168
/-- The whole rectangle of a feature-shaped buffer. -/
abbrev rX : Rect S512x128 := Rect.unit (s := S512x128) ![0, 0] S512x128.size inb_S512x128_S512x128_0_0

/-! ## What the body leaves in each output window's buffer -/

/-- The row sums of the adjacency block as the body forms them: the eight rectangles' lane sums added from the left. -/
def rowsum0 (a : Vec F S512x8192 .f32) : FVec F S512x1 .f32 :=
  k0_pay3 (View.ld a rA0) (View.ld a rA1) (View.ld a rA2) (View.ld a rA3) (View.ld a rA4) (View.ld a rA5) (View.ld a rA6) (View.ld a rA7)

/-- The literal one the body adds to the row sums. -/
def one0 : F .f32 := Scalar.ofBits .f32 0x3F800000#32

/-- Window 2's staging buffer after the body, from the two input blocks: its single whole store. -/
def out0_2 (a : Vec F S512x8192 .f32) (x : Vec F S512x128 .f32) : Vec F S512x128 .f32 :=
  View.canon [⟨rX, k0_pay2 (rowsum0 a) one0 (View.ld x rX)⟩]

/-- Window 3's staging buffer after the body, from the adjacency block: its single whole store. -/
def out0_3 (a : Vec F S512x8192 .f32) : Vec F S512x128 .f32 :=
  View.canon [⟨rX, k0_pay1 (rowsum0 a) one0⟩]

/-- A single whole store tiles the buffer, so it covers it. -/
theorem cover0_X (p0 : Vec F S512x128 .f32) (y : S512x128.Idx) :
    ∃ pc ∈ ([⟨rX, p0⟩] : List (View.Piece (Elt F) S512x128 .f32)), y ∈ pc.1.set :=
  View.cover_of_tiled [⟨rX, p0⟩] S512x128.size (by rfl) y

/-! ## The body's triple -/

set_option maxHeartbeats 1000000 in
/-- The kernel body on whole staging memrefs, the inputs' at read contents and the outputs' at anything, runs to the
    continuation holding the inputs' as they were and each output's at its canonical contents. -/
theorem sound_kernel0 (c : Dev nD) (E : Set ℕ) (i : grid0.Coords)
    (arg1 : Memref sig .tc .vmem S512x8192 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S512x128 .f32) (harg4 : arg4.IsWhole)
    (x0 : Vec F S512x8192 .f32) (x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_X _)
  iexists _; isplitr
  swap; · iexact H3
  ipureintro
  exact View.read_writes_eq_canon _ _ _ (cover0_X _)

/-! ## The pipeline's proof data -/

/-- The proof data of the first pipeline on core c: the arrays as the region finds them; after the body at point t each
    input's buffer at its block and each output's at its canonical contents of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg0

end
-- ==== Proof.KIRuns1.lean ====
/-
  The second kernel (the aggregation and the dense layer) at one grid point (i, k), k the position among the four runs of
  2048 columns: what is common to its three control cases. At k = 0 the row block's own scaled features are put into the
  output block; at every k the product of the adjacency block with the k-th block of scaled features is added to the
  output block; at k = 3 the output block is scaled row by row, multiplied by the transposed weights and the bias added.
  Here: each window's block at a point, that an input window's buffer holds its block whether fetched at the point or
  not, and the two conditions in closed form over the 32 points (k = point mod 4).
-/
import proofs.«104426_j28389733827054_2_alg».proof.Proof.Gen.KernelIdeal.Launch
import proofs.«104426_j28389733827054_2_alg».proof.Proof.Gen.KernelIdeal.Skeleton
import proofs.«104426_j28389733827054_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched the
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched the
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched the
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched the
    block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched the
    block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not fetched the
    block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-- "k = 0": the first conditional's condition, from the grid coordinates. -/
abbrev cond1_0 (i : grid1.Coords) : Prop := (Scalar.cmpi .ne (Scalar.extui (Scalar.cmpi .eq (BitVec.ofNat 32 (i 1).val) 0#32)) 0#32) = 1#1
/-- "k = 3": the second conditional's condition. -/
abbrev cond1_1 (i : grid1.Coords) : Prop := (Scalar.cmpi .ne (Scalar.extui (Scalar.cmpi .eq (BitVec.ofNat 32 (i 1).val) 3#32)) 0#32) = 1#1
/-- The points with k = 0 are those ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
/-- The points with k = 3 are those ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- One buffer of the output window, through which its contents are stated (the choice does not matter). -/
abbrev VO1_6 : View sig .tc .vmem S1024x128 .f32 := (Memref.whole cc1_stg6_0 : Memref sig .tc .vmem S1024x128 .f32).view
/-- Each window's current buffer at point `t`, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

end Cert.KernelIdeal.Reg1

end
-- ==== Proof.KIRun1A.lean ====
/-
  The second kernel's body in the case k = 0: the output block is first set to the row block's own scaled features, then
  gains the product of the adjacency block with the first block of scaled features.
-/
import proofs.«104426_j28389733827054_2_alg».proof.Proof.KIRuns1
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output buffer, as pieces (last first), in the case where only the first
    conditional is taken, with the proof that on whole buffers — the inputs' at their contents, the output's at anything —
    the body runs to the continuation holding the inputs' as they were and the output's with the pieces written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Reg1

end
-- ==== Proof.KIRun1B.lean ====
/-
  The second kernel's body in the case 0 < k < 3: the output block, at what the point before left in it, gains the product
  of the adjacency block with the block of scaled features.
-/
import proofs.«104426_j28389733827054_2_alg».proof.Proof.KIRuns1
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's store leaves in the output buffer, as pieces, in the case where neither conditional is taken, with the
    proof that on whole buffers — the inputs' at their contents, the output's at its running contents `xo` — the body runs
    to the continuation holding the inputs' as they were and the output's with the pieces written. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Reg1

end
-- ==== Proof.KIRun1C.lean ====
/-
  The second kernel's body in the case k = 3: the output block, at what the point before left in it, gains the last
  product; the total is then scaled row by row, multiplied by the transposed weights, and the bias is added.
-/
import proofs.«104426_j28389733827054_2_alg».proof.Proof.KIRuns1
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output buffer, as pieces (last first), in the case where only the second
    conditional is taken, with the proof that on whole buffers — the inputs' at their contents, the output's at its running
    contents `xo` — the body runs to the continuation holding the inputs' as they were and the output's with the pieces
    written. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    { L : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Reg1

end
-- ==== Proof.KIBody1.lean ====
/-
  The second kernel over its 32 grid points (point = 4 i + k): what the output window's buffer holds after each point, by
  recursion on the point — at k = 0 the first case's result, at 0 < k < 3 and at k = 3 the later cases' results over what
  the point before left (the buffer is written back only after k = 3) —, the proof data of the pipeline, and the body
  obligation at every point.
-/
import proofs.«104426_j28389733827054_2_alg».proof.Proof.KIRun1A
import proofs.«104426_j28389733827054_2_alg».proof.Proof.KIRun1B
import proofs.«104426_j28389733827054_2_alg».proof.Proof.KIRun1C
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case k = 0: the two stores are of the whole buffer, so they cover it. -/
theorem cover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 hc0 hc1 x0 x1 x2 x3 x4 x5).1, y ∈ pc.1.set :=
  View.cover_of_tiledL (kernelRun1_A c i arg2 harg2 arg3 harg3 arg4 harg4 arg5 harg5 arg6 harg6 arg7 harg7 arg8 harg8 hc0 hc1 x0 x1 x2 x3 x4 x5).1 S1024x128.size (by sl_kernel_rfl) y

/-- What case k = 0 leaves in the output buffer: its pieces read back. -/
def out1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) : Vec F S1024x128 .f32 :=
  VO1_6.read (Elt F) (VO1_6.writes (Elt F) VO1_6.junk (kernelRun1_A c i arg2 harg2 arg3 harg3 arg4 harg4 arg5 harg5 arg6 harg6 arg7 harg7 arg8 harg8 hc0 hc1 x0 x1 x2 x3 x4 x5).1)

/-- Case 0 < k < 3: the store is of the whole buffer. -/
theorem cover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) (y : S1024x128.Idx) :
    ∃ pc ∈ (kernelRun1_B c i arg2 harg2 arg3 harg3 arg4 harg4 arg5 harg5 arg6 harg6 arg7 harg7 arg8 harg8 hc0 hc1 x0 x1 x2 x3 x4 x5 xo).1, y ∈ pc.1.set :=
  View.cover_of_tiledL (kernelRun1_B c i arg2 harg2 arg3 harg3 arg4 harg4 arg5 harg5 arg6 harg6 arg7 harg7 arg8 harg8 hc0 hc1 x0 x1 x2 x3 x4 x5 xo).1 S1024x128.size (by sl_kernel_rfl) y

/-- What case 0 < k < 3 leaves in the output buffer. -/
def out1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 hc0 hc1 x0 x1 x2 x3 x4 x5 xo).1)

/-- Case k = 3: the two stores are of the whole buffer. -/
theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) (y : S1024x128.Idx) :
    ∃ pc ∈ (kernelRun1_C c i arg2 harg2 arg3 harg3 arg4 harg4 arg5 harg5 arg6 harg6 arg7 harg7 arg8 harg8 hc0 hc1 x0 x1 x2 x3 x4 x5 xo).1, y ∈ pc.1.set :=
  View.cover_of_tiledL (kernelRun1_C c i arg2 harg2 arg3 harg3 arg4 harg4 arg5 harg5 arg6 harg6 arg7 harg7 arg8 harg8 hc0 hc1 x0 x1 x2 x3 x4 x5 xo).1 S1024x128.size (by sl_kernel_rfl) y

/-- What case k = 3 leaves in the output buffer. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i)
    (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 hc0 hc1 x0 x1 x2 x3 x4 x5 xo).1)

variable (V : (c : Dev nD) → (b : Ref sig .tc) → Buf (Elt F) ((c : Thread nD τ).loc b))

/-! ## What the output buffer holds after each point -/

/-- The accumulation: the output window's buffer after the body at position `n`. -/
def outsAt1 (c : Dev nD) : (n : ℕ) → n < cfg1.N → Vec F S1024x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (fun h => absurd ((hcond1_1 ⟨0, hn⟩).mp h) (show ¬ (0 % 4 = 3) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 4 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (fun h => absurd ((hcond1_1 ⟨n + 1, hn⟩).mp h) (show ¬ ((n + 1) % 4 = 3) by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else if h3 : (n + 1) % 4 = 3 then
      out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) ((hcond1_1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn))
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (fun h => h3 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn))

/-- At a point with k = 0. -/
theorem outsAt1_A (c : Dev nD) (t : Fin cfg1.N) (h0 : t.val % 4 = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (fun h => absurd ((hcond1_1 t).mp h) (by omega)) (iblk1 V c 0 t) (iblk1 V c 1 t) (iblk1 V c 2 t) (iblk1 V c 3 t) (iblk1 V c 4 t) (iblk1 V c 5 t) := by
  obtain ⟨n, hn⟩ := t
  cases n with
  | zero => exact rfl
  | succ n => exact (dif_pos h0).trans rfl

/-- At a point with 0 < k < 3: over what the point before left. -/
theorem outsAt1_B (c : Dev nD) (t : Fin cfg1.N) (h0 : ¬t.val % 4 = 0) (h3 : ¬t.val % 4 = 3) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (fun h => h3 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- At a point with k = 3: over what the point before left. -/
theorem outsAt1_C (c : Dev nD) (t : Fin cfg1.N) (h0 : ¬t.val % 4 = 0) (h3 : t.val % 4 = 3) :
    outsAt1 V c t.val t.isLt = out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) ((hcond1_1 t).mpr h3) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-! ## The pipeline's proof data -/

/-- The proof data of the second pipeline on core `c`: the arrays as the region finds them; after the body at point `t`
    each input's buffer at its block and the output's at `outsAt1`; the invariant the scoped rest and the generator
    register, untouched; nothing owed; the array read through two windows held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t.val t.isLt
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- At a point with k ≠ 0 the output window's buffer holds what the body left at the point before: it is not the first
    point and the buffer was not written back in between (that happens after k = 3 only). -/
theorem before1_6_kept (c : Dev nD) (t : Fin cfg1.N) (h0 : ¬t.val % 4 = 0) (d) :
    (dat1 V c).before 6 t d = outsAt1 V c (t.val - 1) (Nat.lt_of_le_of_lt (Nat.sub_le _ _) t.isLt) := by
  have hN : t.val < 32 := lt_of_lt_of_eq t.isLt (show cfg1.N = 32 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
/-- The body at any point: the inputs' buffers hold their blocks; the closed forms say which case the point is in; at
    k ≠ 0 the output's buffer holds what the point before left; so that case's run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 32 := lt_of_lt_of_eq t.isLt (show cfg1.N = 32 from N_1)
  by_cases h0 : t.val % 4 = 0
  · rw [outsAt1_A V c t h0]
    unfold out1_A
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_A c _ _ _ _ _ _ _ _ _ _ _ _ _ _ _ _ _ _ _ _ _ _ _)
  · by_cases h3 : t.val % 4 = 3
    · rw [outsAt1_C V c t h0 h3]
      simp only [before1_6_kept V c t h0]
      unfold out1_C
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ (fun h => h0 ((hcond1_0 t).mp h)) ((hcond1_1 t).mpr h3) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _)
    · rw [outsAt1_B V c t h0 h3]
      simp only [before1_6_kept V c t h0]
      unfold out1_B
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ (fun h => h0 ((hcond1_0 t).mp h)) (fun h => h3 ((hcond1_1 t).mp h)) (iblk1 V c 0 t) (iblk1 V c 1 t) (iblk1 V c 2 t) (iblk1 V c 3 t) (iblk1 V c 4 t) (iblk1 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_B c _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg1

end
-- ==== Proof.KIShare1.lean ====
/-
  The second pipeline reads one array — the scaled features the first kernel left — through two windows (a block of rows
  for the products, another for the self loop). The buffers behind the seven windows' arrays are six; held whole they are
  the pipeline's arrays with the shared buffer's share halved between its two windows, and back.
-/
import proofs.«104426_j28389733827054_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six buffers behind the second pipeline's arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_arg1) ↦{fullShare} Vc main_arg1) ∗ (((c : Thread nD τ).loc main_v0_0) ↦{fullShare} Vc main_v0_0)
          ∗ (((c : Thread nD τ).loc main_v0_1) ↦{fullShare} Vc main_v0_1) ∗ (((c : Thread nD τ).loc main_v1) ↦{fullShare} Vc main_v1)
          ∗ (((c : Thread nD τ).loc main_v2) ↦{fullShare} Vc main_v2) ∗ (((c : Thread nD τ).loc main_v3) ↦{fullShare} Vc main_v3)) := by
  unfold Pipeline.arrBufs
  exact bigSep_eq_bigSepL_of_eq [main_arg1, main_v0_0, main_v0_1, main_v1, main_v2, main_v3] (by decide) (by decide) _

/-- The pipeline's arrays, window by window, each at its share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg1) ↦{fullShare} G 0) ∗ (((c : Thread nD τ).loc main_v0_0) ↦{fullShare.left} G 1)
          ∗ (((c : Thread nD τ).loc main_v0_0) ↦{fullShare.right} G 2) ∗ (((c : Thread nD τ).loc main_v0_1) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ]
  rfl

/-- ENTRY: a core's unscoped buffers at contents `V c` are the second pipeline's arrays at the proof data's entry
    contents — the shared buffer's share halved between its two windows — and the unscoped rest. -/
theorem arrays_of_bufs1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  show (Pipeline.arrBufs (Ix := Unit) (Name := ℕ) (U := UR sig nD τ) (Lvl := ℕ) spec1 c (V c) : sProp 𝕄) ⊢ _
  rw [arrBufs1_eq, arrays1_eq]
  simp only [show ∀ w, (dat1 V c).arrAt w 0 = (dat1 V c).A w from fun _ => rfl, A_eq1]
  iintro ⟨HA, HY, HD, HW, HB, HO⟩
  ihave HY2 := (pointsTo_share (PosShare.mem_left_op_right fullShare)).1 $$ HY
  icases HY2 with ⟨HYl, HYr⟩
  isplitl [HA]; · iexact HA
  isplitl [HYl]; · iexact HYl
  isplitl [HYr]; · iexact HYr
  isplitl [HD]; · iexact HD
  isplitl [HW]; · iexact HW
  isplitl [HB]; · iexact HB
  iexact HO

/-- EXIT: the second pipeline's arrays at contents `G` and the unscoped rest at `V c` are the core's unscoped buffers at
    any contents `V'` that have the arrays at `G` and agree with `V c` off them: the two halves of the shared buffer,
    holding the same contents, join. -/
theorem bufs_of_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs (Ix := Unit) (Name := ℕ) (U := UR sig nD τ) (Lvl := ℕ) spec1 c V' : sProp 𝕄)
    rw [arrBufs1_eq, arrays1_eq, hG 0, hG 1, hG 2, hG 3, hG 4, hG 5, hG 6]
    iintro ⟨HA, HYl, HYr, HD, HW, HB, HO⟩
    ihave HY := (pointsTo_share (PosShare.mem_left_op_right fullShare)).2 $$ [HYl HYr]
    · isplitl [HYl]; · iexact HYl
      iexact HYr
    isplitl [HA]; · iexact HA
    isplitl [HY]; · iexact HY
    isplitl [HD]; · iexact HD
    isplitl [HW]; · iexact HW
    isplitl [HB]; · iexact HB
    iexact HO
  · unfold Pipeline.unscopedRest
    exact bigSep_congr fun b hb => by rw [hrest b (Finset.mem_sdiff.mp hb).2]

end Cert.KernelIdeal.Reg1

end
-- ==== Proof.KIRun.lean ====
/-
  The whole program: the first kernel's region, two host operations (the weights transposed, the bias made a row), the
  second kernel's region. The buffers' contents at each boundary are a fold from the launch memory: the first region
  leaves its two result arrays at what its write-backs make of them, the host operations write two more buffers, the
  second region leaves its one result array likewise and nothing else changed. Every weakly fair execution runs through
  the three segments to the end, and the final memory holds every unscoped buffer at the last boundary's contents.
-/
import proofs.«104426_j28389733827054_2_alg».proof.Proof.KIBody0
import proofs.«104426_j28389733827054_2_alg».proof.Proof.KIShare1
import proofs.«104426_j28389733827054_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunM

open Cert.KernelIdeal Cert.KernelIdeal.Gen Cert.KernelIdeal.Reg0 Cert.KernelIdeal.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: the first region's entry. -/
abbrev W0 : Dev nD → Valuation τ sig (Elt F) := fun c b => m ((c : Dev nD), b)
abbrev VE0 : (c : Dev nD) → (b : Ref sig .tc) → Buf (Elt F) ((c : Thread nD τ).loc b) := fun c b => W0 m c b
/-- At the first region's exit: its arrays at what the pipeline leaves, every other buffer as entered. -/
def W2 (c : Dev nD) : Valuation τ sig (Elt F) :=
  Pipeline.withArrays spec0 c (W0 m c) fun w => (dat0 (VE0 m) c).arrAt w cfg0.N
theorem W2_arr (c : Dev nD) (w : Fin cfg0.W) :
    W2 m c (Proc.devRef .tc (Pipeline.arrRef spec0 w)) = (dat0 (VE0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev VE2 : (c : Dev nD) → (b : Ref sig .tc) → Buf (Elt F) ((c : Thread nD τ).loc b) := fun c b => W2 m c b
theorem hF0 (c : Dev nD) (w : Fin cfg0.W) : (dat0 (VE0 m) c).arrAt w cfg0.N = VE2 m c (Pipeline.arrRef spec0 w) :=
  (W2_arr m c w).symm
theorem hrest0 (c : Dev nD) : ∀ b, b ∉ Finset.univ.image (Pipeline.arrRef spec0) → VE2 m c b = VE0 m c b :=
  fun b hb => W2_of_ne m c b fun w e => hb (Finset.mem_image.mpr ⟨w, Finset.mem_univ _, e⟩)

/-- After the two host operations: the second region's entry. -/
abbrev W3 : Dev nD → Valuation τ sig (Elt F) := fun c => StableHlo.after hostOps1 (W2 m c)
abbrev VE1 : (c : Dev nD) → (b : Ref sig .tc) → Buf (Elt F) ((c : Thread nD τ).loc b) := fun c b => W3 m c b
/-- At the second region's exit: its result array at what the pipeline leaves, every other buffer as entered. -/
def W4 (c : Dev nD) : Valuation τ sig (Elt F) :=
  Function.update (W3 m c) main_v3 ((dat1 (VE1 m) c).arrAt 6 cfg1.N)
theorem W4_main_v3 (c : Dev nD) : W4 m c (Proc.devRef .tc main_v3) = (dat1 (VE1 m) c).arrAt 6 cfg1.N := by
  unfold W4; exact Function.update_self _ _ _
theorem W4_of_ne (c : Dev nD) (b : Ref sig .tc) (hb : b ≠ main_v3) :
    W4 m c (Proc.devRef .tc b) = W3 m c (Proc.devRef .tc b) := by
  unfold W4
  exact Function.update_of_ne (StableHlo.devRef_ne_of_ne hb : (Proc.devRef .tc b : DevRef τ sig) ≠ Proc.devRef .tc main_v3) _ _
abbrev VE4 : (c : Dev nD) → (b : Ref sig .tc) → Buf (Elt F) ((c : Thread nD τ).loc b) := fun c b => W4 m c b
theorem hF1 (c : Dev nD) (w : Fin cfg1.W) : (dat1 (VE1 m) c).arrAt w cfg1.N = VE4 m c (Pipeline.arrRef spec1 w) := by
  match w with
  | ⟨0, _⟩ => exact (((dat1 (VE1 m) c).arrAt_in 0 rfl _).trans (A_eq1 (VE1 m) c 0)).trans (W4_of_ne m c main_arg1 (by decide)).symm
  | ⟨1, _⟩ => exact (((dat1 (VE1 m) c).arrAt_in 1 rfl _).trans (A_eq1 (VE1 m) c 1)).trans (W4_of_ne m c main_v0_0 (by decide)).symm
  | ⟨2, _⟩ => exact (((dat1 (VE1 m) c).arrAt_in 2 rfl _).trans (A_eq1 (VE1 m) c 2)).trans (W4_of_ne m c main_v0_0 (by decide)).symm
  | ⟨3, _⟩ => exact (((dat1 (VE1 m) c).arrAt_in 3 rfl _).trans (A_eq1 (VE1 m) c 3)).trans (W4_of_ne m c main_v0_1 (by decide)).symm
  | ⟨4, _⟩ => exact (((dat1 (VE1 m) c).arrAt_in 4 rfl _).trans (A_eq1 (VE1 m) c 4)).trans (W4_of_ne m c main_v1 (by decide)).symm
  | ⟨5, _⟩ => exact (((dat1 (VE1 m) c).arrAt_in 5 rfl _).trans (A_eq1 (VE1 m) c 5)).trans (W4_of_ne m c main_v2 (by decide)).symm
  | ⟨6, _⟩ => exact (W4_main_v3 m c).symm
theorem hrest1 (c : Dev nD) : ∀ b, b ∉ Finset.univ.image (Pipeline.arrRef spec1) → VE4 m c b = VE1 m c b :=
  fun b hb => W4_of_ne m c b fun e => hb (Finset.mem_image.mpr ⟨6, Finset.mem_univ _, e.symm⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VE2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit : (unscopedBufs c (VE1 m c) : sProp 𝕄)
        ⊢ iprop((pdats m 1 c).arrays ((pdats m 1 c).arrAt · 0) ∗ Pipeline.unscopedRest spec1 c (VE1 m c)) := arrays_of_bufs1 (VE1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VE1 m c))
        ⊢ (unscopedBufs c (VE4 m c) : sProp 𝕄) :=
      bufs_of_arrays1 (VE1 m) c (VE4 m c) ((dat1 (VE1 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.RunM

end
-- ==== Proof.KIArgs.lean ====
/-
  The four argument arrays at the end of the program are what they were at launch. No host operation writes one of
  them; the first region reads two of them through input windows, whose arrays it leaves as it found them, and does not
  touch the other two; the second region changes its one result array only.
-/
import proofs.«104426_j28389733827054_2_alg».proof.Proof.KIRun

noncomputable section

namespace Cert.KernelIdeal.RunM

open Cert.KernelIdeal Cert.KernelIdeal.Gen Cert.KernelIdeal.Reg0 Cert.KernelIdeal.Reg1
open Idealize.ShloMosaic Idealize.ShloMosaic.TcCoe Idealize.SL.Sem

variable {F : FTy → Type} [FloatOps F]
variable (m : (ℓ : Loc nD τ sig) → Buf (Elt F) ℓ)

/-- A buffer the two host operations do not write is, after them, what the first region left. -/
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h

/-! ## After the first region -/

theorem W2_main_arg1 (c : Dev nD) : W2 m c (Proc.devRef .tc main_arg1) = m ((c : Thread nD τ).loc main_arg1) :=
  (W2_arr m c 0).trans <| ((dat0 (VE0 m) c).arrAt_in 0 rfl _).trans (A_eq0 (VE0 m) c 0)
theorem W2_main_arg0 (c : Dev nD) : W2 m c (Proc.devRef .tc main_arg0) = m ((c : Thread nD τ).loc main_arg0) :=
  (W2_arr m c 1).trans <| ((dat0 (VE0 m) c).arrAt_in 1 rfl _).trans (A_eq0 (VE0 m) c 1)
theorem W2_main_arg2 (c : Dev nD) : W2 m c (Proc.devRef .tc main_arg2) = m ((c : Thread nD τ).loc main_arg2) :=
  W2_of_ne m c main_arg2 (by decide)
theorem W2_main_arg3 (c : Dev nD) : W2 m c (Proc.devRef .tc main_arg3) = m ((c : Thread nD τ).loc main_arg3) :=
  W2_of_ne m c main_arg3 (by decide)

/-! ## After the host operations -/

theorem W3_main_arg0 (c : Dev nD) : W3 m c (Proc.devRef .tc main_arg0) = m ((c : Thread nD τ).loc main_arg0) :=
  (W3_of m c main_arg0 (by decide)).trans (W2_main_arg0 m c)
theorem W3_main_arg1 (c : Dev nD) : W3 m c (Proc.devRef .tc main_arg1) = m ((c : Thread nD τ).loc main_arg1) :=
  (W3_of m c main_arg1 (by decide)).trans (W2_main_arg1 m c)
theorem W3_main_arg2 (c : Dev nD) : W3 m c (Proc.devRef .tc main_arg2) = m ((c : Thread nD τ).loc main_arg2) :=
  (W3_of m c main_arg2 (by decide)).trans (W2_main_arg2 m c)
theorem W3_main_arg3 (c : Dev nD) : W3 m c (Proc.devRef .tc main_arg3) = m ((c : Thread nD τ).loc main_arg3) :=
  (W3_of m c main_arg3 (by decide)).trans (W2_main_arg3 m c)

/-! ## At the end -/

theorem W4_main_arg0 (c : Dev nD) : W4 m c (Proc.devRef .tc main_arg0) = m ((c : Thread nD τ).loc main_arg0) :=
  (W4_of_ne m c main_arg0 (by decide)).trans (W3_main_arg0 m c)
theorem W4_main_arg1 (c : Dev nD) : W4 m c (Proc.devRef .tc main_arg1) = m ((c : Thread nD τ).loc main_arg1) :=
  (W4_of_ne m c main_arg1 (by decide)).trans (W3_main_arg1 m c)
theorem W4_main_arg2 (c : Dev nD) : W4 m c (Proc.devRef .tc main_arg2) = m ((c : Thread nD τ).loc main_arg2) :=
  (W4_of_ne m c main_arg2 (by decide)).trans (W3_main_arg2 m c)
theorem W4_main_arg3 (c : Dev nD) : W4 m c (Proc.devRef .tc main_arg3) = m ((c : Thread nD τ).loc main_arg3) :=
  (W4_of_ne m c main_arg3 (by decide)).trans (W3_main_arg3 m c)

end Cert.KernelIdeal.RunM

end
-- ==== Proof.Spec.lean ====
/-
  The layer's result as one function of the four argument arrays, index by index, on the extended reals, in the
  arrangement the two kernels compute it in.

  Row `r` of the adjacency matrix has degree `deg r = (sum of its 8192 entries, taken in eight runs of 1024) + 1` (the
  self loop); its scale is `dinv r = 1 / sqrt (deg r)`, replaced by `0` where that is infinite. The first kernel leaves
  `y (r, c) = dinv r * x (r, c)`. The second adds to `y (r, c)` the products `adj (r, j) * y (j, c)` in four runs of 2048
  columns `j`, scales the total by `dinv r` again, and applies the dense layer: the sum over `c` of that times `W (o, c)`,
  plus `b o`.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals, indexed as the arrays are. -/
abbrev Mat (a b : Nat) : Type := (⟨2, ![a, b]⟩ : Shape).Idx → EReal
/-- A vector of extended reals. -/
abbrev Vect (a : Nat) : Type := (⟨1, ![a]⟩ : Shape).Idx → EReal

/-- The three float literals of the kernels: zero, one and plus infinity. -/
abbrev zero32 : EReal := Ideal.ofBits .f32 0x00000000#32
abbrev one32 : EReal := Ideal.ofBits .f32 0x3F800000#32
abbrev inf32 : EReal := Ideal.ofBits .f32 0x7F800000#32

/-- Column `j` of the `kb`-th run of 1024 columns. -/
def col8 (kb : Fin 8) (j : Fin 1024) : Fin 8192 := ⟨1024 * kb.val + j.val, by omega⟩
/-- Column `j` of the `kb`-th run of 2048 columns. -/
def col4 (kb : Fin 4) (j : Fin 2048) : Fin 8192 := ⟨2048 * kb.val + j.val, by omega⟩

/-- The sum of row `r` over its `kb`-th run of 1024 columns. -/
def chunk (adj : Mat 8192 8192) (r : Fin 8192) (kb : Fin 8) : EReal := ∑ j : Fin 1024, adj (ix2 r (col8 kb j))

/-- The degree of row `r`, self loop included, the eight runs added from the left. -/
def degK (adj : Mat 8192 8192) (r : Fin 8192) : EReal :=
  ((((((((zero32 + chunk adj r 0) + chunk adj r 1) + chunk adj r 2) + chunk adj r 3) + chunk adj r 4) + chunk adj r 5)
    + chunk adj r 6) + chunk adj r 7) + one32

/-- `1 / sqrt d`, and `0` where that is infinite. -/
def dinvOf (d : EReal) : EReal :=
  Scalar.select
    (FloatOps.cmpf (F := Ideal) (φ := .f32) .oeq
      (FloatOps.absf (F := Ideal) (φ := .f32) (FloatOps.rsqrt (F := Ideal) (φ := .f32) d)) inf32)
    zero32 (FloatOps.rsqrt (F := Ideal) (φ := .f32) d)

/-- Row `r`'s scale. -/
def dinvK (adj : Mat 8192 8192) (r : Fin 8192) : EReal := dinvOf (degK adj r)

/-- The scaled features. -/
def yK (x : Mat 8192 128) (adj : Mat 8192 8192) (r : Fin 8192) (c : Fin 128) : EReal := dinvK adj r * x (ix2 r c)

/-- Row `r` of the adjacency matrix against column `c` of the scaled features, over the `kb`-th run of 2048 columns. -/
def blk (x : Mat 8192 128) (adj : Mat 8192 8192) (r : Fin 8192) (c : Fin 128) (kb : Fin 4) : EReal :=
  ∑ j : Fin 2048, adj (ix2 r (col4 kb j)) * yK x adj (col4 kb j) c

/-- The aggregated features: the row's own scaled features plus the four runs, added from the left. -/
def accK (x : Mat 8192 128) (adj : Mat 8192 8192) (r : Fin 8192) (c : Fin 128) : EReal :=
  (((yK x adj r c + blk x adj r c 0) + blk x adj r c 1) + blk x adj r c 2) + blk x adj r c 3

/-- The layer's result at row `r`, output feature `o`. -/
def outK (x : Mat 8192 128) (adj : Mat 8192 8192) (W : Mat 128 128) (b : Vect 128) (r : Fin 8192) (o : Fin 128) : EReal :=
  (∑ c : Fin 128, (accK x adj r c * dinvK adj r) * W (ix2 o c)) + b (ix1 o)

/-- The layer's result as an array. -/
def KerG (x : Mat 8192 128) (adj : Mat 8192 8192) (W : Mat 128 128) (b : Vect 128) : Mat 8192 128 :=
  fun i => outK x adj W b (i 0) (i 1)

end Cert.Gcn

end
-- ==== Proof.KIPay0.lean ====
/-
  What the first pipeline's body computes, index by index, on the extended reals.

  The body sums the adjacency block over its lanes in eight runs of 1024 columns, adds the runs from the left onto zero,
  adds one, takes the reciprocal square root and replaces an infinite value by zero; this column is spread over the 128
  lanes (the second output) and multiplied entrywise into the feature block (the first output). Read at entry (p, q) of
  the block, the second output is the scale of the block's row p and the first is that scale times the feature entry.
-/
import proofs.«104426_j28389733827054_2_alg».proof.Proof.KIBody0
import proofs.«104426_j28389733827054_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Reg0

open Cert.KernelIdeal Cert.KernelIdeal.Gen Cert.Gcn
open Idealize.ShloMosaic Idealize.ShloMosaic.ValueIdx

/-! ## A column kept as a unit axis -/

/-- An [a] array cast to [a, 1] reads, at (p, u), the operand at p: the position p·1 + u is p since u = 0. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand at (p, 0): every entry of row p is the row's one
    value. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The lane sums -/

/-- The sum of a [512, 1024] rectangle over its lanes, kept as a column, read at row p: the sum of the row's 1024
    entries. -/
theorem lanesum_apply (v : FVec Ideal S512x1024 .f32) (hφ : FKind.Formats .f32)
    (hacc : (0x00000000#32 : BitVec 32) = FKind.add.neutral .f32 hφ) (p : Fin 512) (u : Fin 1) :
    shapeCast S512x1 (multiReduction .add [1] S512 v 0x00000000#32 reduces_S512x1024_S512 hφ hacc) shapeCasts_S512_S512x1 (ix2 p u)
      = ∑ j : Fin 1024, v (ix2 p j) := by
  refine (shapeCast_a_a1_apply _ _ p u).trans ?_
  refine (Ideal.multiReduction_add_single v 0x00000000#32 reduces_S512x1024_S512 hφ hacc (ix1 p)).trans ?_
  refine Finset.sum_congr rfl fun k _ => congrArg v ?_
  funext a
  match a with
  | ⟨0, _⟩ => rfl
  | ⟨1, _⟩ => rfl

/-- The eight lane sums added from the left onto zero, read at row p. -/
theorem pay3_apply (v1 v5 v9 v13 v17 v21 v25 v29 : FVec Ideal S512x1024 .f32) (p : Fin 512) (u : Fin 1) :
    k0_pay3 (F := Ideal) v1 v5 v9 v13 v17 v21 v25 v29 (ix2 p u)
      = (((((((zero32 + ∑ j : Fin 1024, v1 (ix2 p j)) + ∑ j : Fin 1024, v5 (ix2 p j)) + ∑ j : Fin 1024, v9 (ix2 p j))
          + ∑ j : Fin 1024, v13 (ix2 p j)) + ∑ j : Fin 1024, v17 (ix2 p j)) + ∑ j : Fin 1024, v21 (ix2 p j))
          + ∑ j : Fin 1024, v25 (ix2 p j)) + ∑ j : Fin 1024, v29 (ix2 p j) := by
  unfold k0_pay3
  simp only [addf_apply]
  refine congrArg₂ (· + ·) (congrArg₂ (· + ·) (congrArg₂ (· + ·) (congrArg₂ (· + ·) (congrArg₂ (· + ·)
    (congrArg₂ (· + ·) (congrArg₂ (· + ·) (congrArg₂ (· + ·) rfl ?_) ?_) ?_) ?_) ?_) ?_) ?_) ?_ <;>
    exact lanesum_apply _ _ _ p u

/-- The scale column spread over the lanes, read at (p, q): the scale of the row sum at p plus one. -/
theorem pay1_apply (v32 : FVec Ideal S512x1 .f32) (p : Fin 512) (q : Fin 128) :
    k0_pay1 (F := Ideal) v32 (one0 (F := Ideal)) (ix2 p q) = dinvOf (v32 (ix2 p (0 : Fin 1)) + one32) := by
  unfold k0_pay1
  refine (broadcastTo_a1_ab_apply _ _ p q).trans ?_
  rw [shapeCast_self]
  rfl

/-- The scaled features, read at (p, q). -/
theorem pay2_apply (v32 : FVec Ideal S512x1 .f32) (x : Vec Ideal S512x128 .f32) (p : Fin 512) (q : Fin 128) :
    k0_pay2 (F := Ideal) v32 (one0 (F := Ideal)) x (ix2 p q) = dinvOf (v32 (ix2 p (0 : Fin 1)) + one32) * x (ix2 p q) := by
  unfold k0_pay2
  refine (mulf_apply _ _ _).trans ?_
  rw [pay1_apply]

/-! ## The two stored blocks, entry by entry -/

theorem hz2 : (![0, 0] : Fin 2 → Nat) = fun _ => 0 := funext fun a => by fin_cases a <;> rfl

/-- Entry (p, j) of the column rectangle at lane offset o is the block's entry (p, o + j). -/
theorem ld_cols (a : Vec Ideal S512x8192 .f32) (o : ℕ)
    (inb : ∀ ax, (![0, o] : Fin 2 → Nat) ax + S512x1024.size ax ≤ S512x8192.size ax) (p : Fin 512) (j : Fin 1024)
    (c : Fin 8192) (hc : c.val = o + j.val) :
    View.ld a (Rect.unit (s := S512x8192) ![0, o] S512x1024.size inb) (ix2 p j) = a (ix2 p c) := by
  refine congrArg a (funext fun ax => Fin.ext ?_)
  match ax with
  | ⟨0, _⟩ => show 0 + 1 * p.val = p.val; omega
  | ⟨1, _⟩ => show o + 1 * j.val = c.val; omega

/-- Where row p of the block is row r of the adjacency matrix, the block's row sum at p plus one is the degree of r. -/
theorem rowsum0_apply (a : Vec Ideal S512x8192 .f32) (adj : Mat 8192 8192) (r : Fin 8192) (p : Fin 512) (u : Fin 1)
    (h : ∀ c : Fin 8192, a (ix2 p c) = adj (ix2 r c)) :
    rowsum0 (F := Ideal) a (ix2 p u) + one32 = degK adj r := by
  unfold rowsum0 degK chunk
  refine congrArg (· + one32) ?_
  refine (pay3_apply _ _ _ _ _ _ _ _ p u).trans ?_
  refine congrArg₂ (· + ·) (congrArg₂ (· + ·) (congrArg₂ (· + ·) (congrArg₂ (· + ·) (congrArg₂ (· + ·)
    (congrArg₂ (· + ·) (congrArg₂ (· + ·) (congrArg₂ (· + ·) rfl ?_) ?_) ?_) ?_) ?_) ?_) ?_) ?_
  · exact Finset.sum_congr rfl fun j _ => (ld_cols a 0 _ p j (col8 0 j) rfl).trans (h _)
  · exact Finset.sum_congr rfl fun j _ => (ld_cols a 1024 _ p j (col8 1 j) rfl).trans (h _)
  · exact Finset.sum_congr rfl fun j _ => (ld_cols a 2048 _ p j (col8 2 j) rfl).trans (h _)
  · exact Finset.sum_congr rfl fun j _ => (ld_cols a 3072 _ p j (col8 3 j) rfl).trans (h _)
  · exact Finset.sum_congr rfl fun j _ => (ld_cols a 4096 _ p j (col8 4 j) rfl).trans (h _)
  · exact Finset.sum_congr rfl fun j _ => (ld_cols a 5120 _ p j (col8 5 j) rfl).trans (h _)
  · exact Finset.sum_congr rfl fun j _ => (ld_cols a 6144 _ p j (col8 6 j) rfl).trans (h _)
  · exact Finset.sum_congr rfl fun j _ => (ld_cols a 7168 _ p j (col8 7 j) rfl).trans (h _)

/-- The second output's block at (p, q): the scale of the adjacency row that the block's row p is. -/
theorem out0_3_apply (a : Vec Ideal S512x8192 .f32) (adj : Mat 8192 8192) (r : Fin 8192) (p : Fin 512) (q : Fin 128)
    (h : ∀ c : Fin 8192, a (ix2 p c) = adj (ix2 r c)) :
    out0_3 (F := Ideal) a (ix2 p q) = dinvK adj r := by
  unfold out0_3
  rw [View.canon_unit_zero hz2]
  refine (pay1_apply _ p q).trans ?_
  exact congrArg dinvOf (rowsum0_apply a adj r p 0 h)

/-- The first output's block at (p, q): that scale times the feature entry. -/
theorem out0_2_apply (a : Vec Ideal S512x8192 .f32) (x : Vec Ideal S512x128 .f32) (adj : Mat 8192 8192) (xs : Mat 8192 128)
    (r : Fin 8192) (p : Fin 512) (q : Fin 128)
    (h : ∀ c : Fin 8192, a (ix2 p c) = adj (ix2 r c)) (hx : x (ix2 p q) = xs (ix2 r q)) :
    out0_2 (F := Ideal) a x (ix2 p q) = yK xs adj r q := by
  unfold out0_2
  rw [View.canon_unit_zero hz2]
  refine (pay2_apply _ _ p q).trans ?_
  exact congrArg₂ (· * ·) (congrArg dinvOf (rowsum0_apply a adj r p 0 h))
    ((congrFun (View.ld_unit_zero (S := S512x128) hz2 _ x) _).trans hx)

end Cert.KernelIdeal.Reg0

end
-- ==== Proof.KIVal0.lean ====
/-
  The two arrays the first pipeline leaves, as whole-array functions of the contents the region is entered with.

  Grid point t works on rows 512·t … 512·t + 511: its adjacency block, its feature block and both output blocks are those
  rows of their arrays. So what point t writes back is the restriction to those rows of one function of the entry
  contents — the scaled features for the first output, the row scale spread over the lanes for the second — and the
  sixteen row blocks cover the arrays.
-/
import proofs.«104426_j28389733827054_2_alg».proof.Proof.KIPay0

noncomputable section

namespace Cert.KernelIdeal.Reg0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where a block sits in its array -/

/-- Every window's block at point t is block (t, 0) of its array. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's blocks is row 512·t + p of the arrays. -/
def row0 (t : Fin cfg0.N) (p : Fin 512) : Fin 8192 :=
  ⟨512 * t.val + p.val, by have := t.isLt; have hN : cfg0.N = 16 := N_0; have := p.isLt; omega⟩

/-- The adjacency block at point t, entry (p, j): the adjacency matrix at (512·t + p, j). -/
theorem iblk0_0_apply (c : Dev nD) (t : Fin cfg0.N) (p : Fin 512) (j : Fin 8192) :
    (iblk0 V c 0 t : Vec Ideal S512x8192 .f32) (ix2 p j) = (V c main_arg1 : Mat 8192 8192) (ix2 (row0 t p) j) := by
  obtain ⟨e0, e1, -⟩ := idx_facts0 t
  show V c main_arg1 (((cfg0.win 0).blk t).view.emb (ix2 p j)) = V c main_arg1 (ix2 (row0 t p) j)
  refine congrArg (V c main_arg1) (funext fun a => Fin.ext ?_)
  match a with
  | ⟨0, _⟩ => show win0_0.index t (0 : Fin 2) * 512 + 1 * p.val = 512 * t.val + p.val; omega
  | ⟨1, _⟩ => show win0_0.index t (1 : Fin 2) * 8192 + 1 * j.val = j.val; omega

/-- The feature block at point t, entry (p, q): the feature matrix at (512·t + p, q). -/
theorem iblk0_1_apply (c : Dev nD) (t : Fin cfg0.N) (p : Fin 512) (q : Fin 128) :
    (iblk0 V c 1 t : Vec Ideal S512x128 .f32) (ix2 p q) = (V c main_arg0 : Mat 8192 128) (ix2 (row0 t p) q) := by
  obtain ⟨-, -, e0, e1, -⟩ := idx_facts0 t
  show V c main_arg0 (((cfg0.win 1).blk t).view.emb (ix2 p q)) = V c main_arg0 (ix2 (row0 t p) q)
  refine congrArg (V c main_arg0) (funext fun a => Fin.ext ?_)
  match a with
  | ⟨0, _⟩ => show win0_1.index t (0 : Fin 2) * 512 + 1 * p.val = 512 * t.val + p.val; omega
  | ⟨1, _⟩ => show win0_1.index t (1 : Fin 2) * 128 + 1 * q.val = q.val; omega

/-! ## The first output: the scaled features -/

/-- What point t writes back to the first output is rows 512·t … of the scaled features. -/
theorem flushed0_2_eq (c : Dev nD) (t : Fin cfg0.N) :
    (dat0 V c).flushed 2 t = ((cfg0.win 2).blk t).view.read (Elt Ideal)
      (fun i : S8192x128.Idx => yK (V c main_arg0) (V c main_arg1) (i 0) (i 1)) := by
  show (cfg0.win 2).cut (grid0.coords t) ((dat0 V c).after 2 t) = _
  rw [after0_2]
  obtain ⟨-, -, -, -, e0, e1, -⟩ := idx_facts0 t
  funext y
  obtain ⟨p, q, rfl⟩ : ∃ (p : Fin 512) (q : Fin 128), y = ix2 p q := ⟨y 0, y 1, eq_ix2 y⟩
  show out0_2 (iblk0 V c 0 t) (iblk0 V c 1 t) (ix2 p q)
    = yK (V c main_arg0) (V c main_arg1) ((((cfg0.win 2).blk t).view.emb (ix2 p q)) 0) ((((cfg0.win 2).blk t).view.emb (ix2 p q)) 1)
  refine (out0_2_apply (iblk0 V c 0 t) (iblk0 V c 1 t) (V c main_arg1) (V c main_arg0) (row0 t p) p q
    (fun j => iblk0_0_apply V c t p j) (iblk0_1_apply V c t p q)).trans ?_
  refine congrArg₂ (yK (V c main_arg0) (V c main_arg1)) (Fin.ext ?_) (Fin.ext ?_)
  · show 512 * t.val + p.val = win0_2.index t (0 : Fin 2) * 512 + 1 * p.val; omega
  · show q.val = win0_2.index t (1 : Fin 2) * 128 + 1 * q.val; omega

/-- An index of the first output is in point t's block iff each coordinate is in the block's range. -/
theorem mem_blk0_2 (t : Fin cfg0.N) (i : S8192x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v0_0).slice (win0_2.rect t)).set ↔ _
  rw [View.set_slice_whole, Rect.mem_set_unit]
  exact Iff.rfl

/-- Row r lies in the block of point r / 512. -/
theorem cover0_2 (i : S8192x128.Idx) : ∃ t : Fin cfg0.N, (cfg0.win 2).flush t = true ∧ i ∈ ((cfg0.win 2).blk t).view.set := by
  have hN : cfg0.N = 16 := N_0
  have hi0 : (i 0).val < 8192 := (i 0).isLt
  have hi1 : (i 1).val < 128 := (i 1).isLt
  obtain ⟨t, ht⟩ : ∃ t : Fin cfg0.N, t.val = (i 0).val / 512 := ⟨⟨(i 0).val / 512, by omega⟩, rfl⟩
  obtain ⟨-, -, -, -, e0, e1, -⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- The first output when the region is left: the scaled features of the entry contents. -/
theorem final0_2 (c : Dev nD) :
    (dat0 (F := Ideal) V c).arrAt 2 cfg0.N = fun i : S8192x128.Idx => yK (V c main_arg0) (V c main_arg1) (i 0) (i 1) :=
  (dat0 V c).arrAt_eq_of_cover 2 _ (fun t _ => flushed0_2_eq V c t) cover0_2

/-! ## The second output: the row scale over the lanes -/

/-- What point t writes back to the second output is rows 512·t … of the row scale spread over the lanes. -/
theorem flushed0_3_eq (c : Dev nD) (t : Fin cfg0.N) :
    (dat0 V c).flushed 3 t = ((cfg0.win 3).blk t).view.read (Elt Ideal)
      (fun i : S8192x128.Idx => dinvK (V c main_arg1) (i 0)) := by
  show (cfg0.win 3).cut (grid0.coords t) ((dat0 V c).after 3 t) = _
  rw [after0_3]
  obtain ⟨-, -, -, -, -, -, e0, e1⟩ := idx_facts0 t
  funext y
  obtain ⟨p, q, rfl⟩ : ∃ (p : Fin 512) (q : Fin 128), y = ix2 p q := ⟨y 0, y 1, eq_ix2 y⟩
  show out0_3 (iblk0 V c 0 t) (ix2 p q) = dinvK (V c main_arg1) ((((cfg0.win 3).blk t).view.emb (ix2 p q)) 0)
  refine (out0_3_apply (iblk0 V c 0 t) (V c main_arg1) (row0 t p) p q (fun j => iblk0_0_apply V c t p j)).trans ?_
  refine congrArg (dinvK (V c main_arg1)) (Fin.ext ?_)
  show 512 * t.val + p.val = win0_3.index t (0 : Fin 2) * 512 + 1 * p.val; omega

theorem mem_blk0_3 (t : Fin cfg0.N) (i : S8192x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v0_1).slice (win0_3.rect t)).set ↔ _
  rw [View.set_slice_whole, Rect.mem_set_unit]
  exact Iff.rfl

theorem cover0_3 (i : S8192x128.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 128 := (i 1).isLt
  obtain ⟨t, ht⟩ : ∃ t : Fin cfg0.N, t.val = (i 0).val / 512 := ⟨⟨(i 0).val / 512, by omega⟩, rfl⟩
  obtain ⟨-, -, -, -, -, -, e0, e1⟩ := idx_facts0 t
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The second output when the region is left: each row's scale, on all 128 lanes. -/
theorem final0_3 (c : Dev nD) :
    (dat0 (F := Ideal) V c).arrAt 3 cfg0.N = fun i : S8192x128.Idx => dinvK (V c main_arg1) (i 0) :=
  (dat0 V c).arrAt_eq_of_cover 3 _ (fun t _ => flushed0_3_eq V c t) cover0_3

end Cert.KernelIdeal.Reg0

end
-- ==== Proof.KIEntry1.lean ====
/-
  What the second region finds in the buffers when it is entered. The adjacency matrix is as launched. The two arrays
  the first region wrote hold the scaled features and the scales. The two buffers the host operations wrote hold the
  weights transposed and the bias as a row of one line.
-/
import proofs.«104426_j28389733827054_2_alg».proof.Proof.KIRun
import proofs.«104426_j28389733827054_2_alg».proof.Proof.KIVal0
import proofs.«104426_j28389733827054_2_alg».proof.Proof.KIArgs
import Idealize.ShloMosaic.Lib.ValueLayout

noncomputable section

namespace Cert.KernelIdeal.RunM

open Cert.KernelIdeal Cert.KernelIdeal.Gen Cert.KernelIdeal.Reg0 Cert.KernelIdeal.Reg1
open Idealize.ShloMosaic Idealize.ShloMosaic.TcCoe Idealize.ShloMosaic.ValueIdx Idealize.SL.Sem

section AnyF

variable {F : FTy → Type} [FloatOps F]
variable (m : (ℓ : Loc nD τ sig) → Buf (Elt F) ℓ)

/-- The adjacency matrix is as launched. -/
theorem VE1_main_arg1 (c : Dev nD) : VE1 m c main_arg1 = m ((c : Thread nD τ).loc main_arg1) :=
  W3_main_arg1 m c

/-- The weights' buffer is the transpose of the weights as launched. -/
theorem VE1_main_v1_eq (c : Dev nD) :
    (VE1 m c main_v1 : (⟨S128x128, .f32⟩ : BufTy).Contents (Elt F))
      = transpose S128x128 [1, 0] (m ((c : Thread nD τ).loc main_arg2)) transposes_S128x128_S128x128_1_0 := by
  rw [← W2_main_arg2 m c]
  show StableHlo.after hostOps1 (W2 m c) (Proc.devRef .tc main_v1) = _
  after_results

theorem VE1_main_v1 (c : Dev nD) (cc o : Fin 128) :
    (VE1 m c main_v1 : (⟨S128x128, .f32⟩ : BufTy).Contents (Elt F)) (ix2 cc o)
      = (m ((c : Thread nD τ).loc main_arg2) : (⟨S128x128, .f32⟩ : BufTy).Contents (Elt F)) (ix2 o cc) := by
  rw [VE1_main_v1_eq]
  exact transpose_ix2_apply _ _ cc o

/-- The bias's buffer is the bias as launched, as a row of one line. -/
theorem VE1_main_v2_eq (c : Dev nD) :
    (VE1 m c main_v2 : (⟨S1x128, .f32⟩ : BufTy).Contents (Elt F))
      = shapeCast S1x128 (m ((c : Thread nD τ).loc main_arg3) : (⟨S128, .f32⟩ : BufTy).Contents (Elt F))
          shapeCasts_S128_S1x128 := by
  rw [← W2_main_arg3 m c]
  show StableHlo.after hostOps1 (W2 m c) (Proc.devRef .tc main_v2) = _
  after_results
  rfl

theorem VE1_main_v2 (c : Dev nD) (o : Fin 128) :
    (VE1 m c main_v2 : (⟨S1x128, .f32⟩ : BufTy).Contents (Elt F)) (ix2 (0 : Fin 1) o)
      = (m ((c : Thread nD τ).loc main_arg3) : (⟨S128, .f32⟩ : BufTy).Contents (Elt F)) (ix1 o) := by
  rw [VE1_main_v2_eq]
  exact shapeCast_a_1a_apply _ _ 0 o

end AnyF

section AtIdeal

variable (m : (ℓ : Loc nD τ sig) → Buf (Elt Ideal) ℓ)

/-- The first region's first result: the scaled features. -/
theorem VE1_main_v0_0 (c : Dev nD) :
    VE1 (F := Ideal) m c main_v0_0
      = fun i : S8192x128.Idx =>
          Cert.Gcn.yK (m ((c : Thread nD τ).loc main_arg0)) (m ((c : Thread nD τ).loc main_arg1)) (i 0) (i 1) :=
  (W3_of m c main_v0_0 (by decide)).trans <| (W2_arr m c 2).trans (final0_2 (VE0 m) c)

/-- The first region's second result: the scales. -/
theorem VE1_main_v0_1 (c : Dev nD) :
    VE1 (F := Ideal) m c main_v0_1
      = fun i : S8192x128.Idx => Cert.Gcn.dinvK (m ((c : Thread nD τ).loc main_arg1)) (i 0) :=
  (W3_of m c main_v0_1 (by decide)).trans <| (W2_arr m c 3).trans (final0_3 (VE0 m) c)

end AtIdeal

end Cert.KernelIdeal.RunM

end
-- ==== Proof.KIVal1a.lean ====
/-
  What each control case of the second kernel leaves in the output block, as a function of the blocks it is handed: every
  store is of the whole block, so the last one decides; a block read back after a store is that store's value.
  At k = 0: acc(a, y, own) — the own scaled features plus the product a·y. At 0 < k < 3: acc(a, y, before). At k = 3: the
  dense layer applied to acc(a, y, before).
-/
import proofs.«104426_j28389733827054_2_alg».proof.Proof.KIBody1
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl

theorem out1_A_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : cond1_0 i) (hc1 : ¬cond1_1 i) (x0 : Vec F S1024x2048 .f32) (x1 : Vec F S2048x128 .f32) (x2 : Vec F S1024x128 .f32) (x3 : Vec F S1024x128 .f32) (x4 : Vec F S128x128 .f32) (x5 : Vec F S1x128 .f32) :
    out1_A c i arg2 harg2 arg3 harg3 arg4 harg4 arg5 harg5 arg6 harg6 arg7 harg7 arg8 harg8 hc0 hc1 x0 x1 x2 x3 x4 x5 = k1_pay2 x0 x1 (k1_pay1 x2) := by
  unfold out1_A
  rw [View.read_writes_eq_canon _ _ _ (cover1_A c i arg2 harg2 arg3 harg3 arg4 harg4 arg5 harg5 arg6 harg6 arg7 harg7 arg8 harg8 hc0 hc1 x0 x1 x2 x3 x4 x5)]
  unfold kernelRun1_A
  dsimp only
  sl_unfold_words
  refine (View.canon_cons_unit_zero (S := S1024x128) hz2 _ _ _).trans ?_
  simp only [View.readCov_unit_zero (S := S1024x128) _ hz2, View.readAt_eq_ld, Memref.IsWhole.read_unread,
    View.ld_unit_zero (S := S1024x128) hz2, View.ld_unit_zero (S := S1024x2048) hz2, View.ld_unit_zero (S := S2048x128) hz2]

theorem out1_B_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : ¬cond1_1 i) (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    out1_B c i arg2 harg2 arg3 harg3 arg4 harg4 arg5 harg5 arg6 harg6 arg7 harg7 arg8 harg8 hc0 hc1 x0 x1 x2 x3 x4 x5 xo = k1_pay2 x0 x1 xo := by
  unfold out1_B
  rw [View.read_writes_eq_canon _ _ _ (cover1_B c i arg2 harg2 arg3 harg3 arg4 harg4 arg5 harg5 arg6 harg6 arg7 harg7 arg8 harg8 hc0 hc1 x0 x1 x2 x3 x4 x5 xo)]
  unfold kernelRun1_B
  dsimp only
  sl_unfold_words
  refine (View.canon_cons_unit_zero (S := S1024x128) hz2 _ _ _).trans ?_
  simp only [View.readAt_eq_ld, Memref.IsWhole.read_unread,
    View.ld_unit_zero (S := S1024x128) hz2, View.ld_unit_zero (S := S1024x2048) hz2, View.ld_unit_zero (S := S2048x128) hz2]

theorem out1_C_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (hc0 : ¬cond1_0 i) (hc1 : cond1_1 i) (x0 : Vec F S1024x2048 .f32) (x1 : Vec F S2048x128 .f32) (x2 : Vec F S1024x128 .f32) (x3 : Vec F S1024x128 .f32) (x4 : Vec F S128x128 .f32) (x5 : Vec F S1x128 .f32) (xo : Vec F S1024x128 .f32) :
    out1_C c i arg2 harg2 arg3 harg3 arg4 harg4 arg5 harg5 arg6 harg6 arg7 harg7 arg8 harg8 hc0 hc1 x0 x1 x2 x3 x4 x5 xo = k1_pay3 (k1_pay2 x0 x1 xo) x3 x4 x5 := by
  unfold out1_C
  rw [View.read_writes_eq_canon _ _ _ (cover1_C c i arg2 harg2 arg3 harg3 arg4 harg4 arg5 harg5 arg6 harg6 arg7 harg7 arg8 harg8 hc0 hc1 x0 x1 x2 x3 x4 x5 xo)]
  unfold kernelRun1_C
  dsimp only
  sl_unfold_words
  refine (View.canon_cons_unit_zero (S := S1024x128) hz2 _ _ _).trans ?_
  simp only [View.readCov_unit_zero (S := S1024x128) _ hz2, View.readAt_eq_ld, Memref.IsWhole.read_unread,
    View.ld_unit_zero (S := S1024x128) hz2, View.ld_unit_zero (S := S1024x2048) hz2, View.ld_unit_zero (S := S2048x128) hz2,
    View.ld_unit_zero (S := S128x128) hz2, View.ld_unit_zero (S := S1x128) hz2]

end Cert.KernelIdeal.Reg1

end
-- ==== Proof.LibDotRows.lean ====
/-
  A plain matrix product, read one entry at a time, is a row against the columns.

  For a contraction of an [M, K] operand's second axis with a [K, N] operand's first axis — the dimension numbers of a
  plain matrix product — the sum over the contraction index that a matrix product denotes on the extended reals is
  the sum over k of the left operand's entry (i, k) times the right operand's entry (k, j). The lemma is stated for
  any dimension record whose four coordinate maps are the plain ones (the hypotheses), so that it applies both to a
  kernel's matrix unit over one block and to a host contraction over the whole array; what follows from it is that
  entry (i, j) depends on the left operand through its row i alone.
-/
import Idealize.ShloMosaic.PureOps.Ideal.Laws
import Idealize.ShloMosaic.Lib.ValueIdx

noncomputable section

namespace Cert.LibDotRows

open Idealize.ShloMosaic Idealize.ShloMosaic.ValueIdx

/-- The row `x` against column `q` of `w`: the sum over k of x k · w (k, q), on the extended reals. -/
def rowDot {K N : Nat} (x : Fin K → EReal) (w : (⟨2, ![K, N]⟩ : Shape).Idx → EReal) (q : Fin N) : EReal :=
  ∑ k : Fin K, x k * w (ix2 k q)

/-- The sum over a plain contraction's index is the row sum: the left operand is read along row `i 0`, the right
    operand down column `i 1`. The four hypotheses say that the record's coordinate maps are the plain ones. -/
theorem sum_contr_eq_rowDot {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ k : D.contr.Idx, l (D.lhsIdx i k) * r (D.rhsIdx i k) = rowDot (fun k => l (ix2 (i 0) k)) r (i 1) := by
  unfold rowDot
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

/-- Two rows that agree entry by entry have the same product with every column. -/
theorem rowDot_congr {K N : Nat} {x y : Fin K → EReal} (h : ∀ k, x k = y k) (w : (⟨2, ![K, N]⟩ : Shape).Idx → EReal) (q : Fin N) :
    rowDot x w q = rowDot y w q := by
  unfold rowDot
  exact Finset.sum_congr rfl fun k _ => by rw [h k]

end Cert.LibDotRows

end
-- ==== Proof.KIVal1b.lean ====
/-
  The second kernel's three payloads read at an entry, on the extended reals (a change of float format is the identity; a
  matrix product into a zero accumulator is the row sum of products): the first is the block itself; the second, at
  (p, c), is the previous value plus the sum over j of a (p, j) · y (j, c); the third, at (p, o), is the sum over c of
  (mid (p, c) · d (p, c)) · wt (c, o), plus the one bias row at o.
-/
import proofs.«104426_j28389733827054_2_alg».proof.Proof.Gen.KernelIdeal.Skeleton
import proofs.«104426_j28389733827054_2_alg».proof.Proof.LibDotRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Reg1V

open Cert.KernelIdeal Cert.KernelIdeal.Gen
open Idealize.ShloMosaic Idealize.ShloMosaic.ValueIdx

theorem pay1_eq (x : Vec Ideal S1024x128 .f32) : k1_pay1 (F := Ideal) x = x := by
  unfold k1_pay1; exact shapeCast_self _ _

/-- The plain coordinate maps of the [1024, 2048] x [2048, 128] product. -/
theorem d1_l0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem d1_l1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem d1_r0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem d1_r1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The plain coordinate maps of the [1024, 128] x [128, 128] product. -/
theorem d2_l0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem d2_l1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem d2_r0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem d2_r1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem pay2_apply (a : Vec Ideal S1024x2048 .f32) (y : Vec Ideal S2048x128 .f32) (prev : Vec Ideal S1024x128 .f32)
    (p : Fin 1024) (c : Fin 128) :
    k1_pay2 (F := Ideal) a y prev (ix2 p c) = prev (ix2 p c) + ∑ j : Fin 2048, a (ix2 p j) * y (ix2 j c) := by
  unfold k1_pay2
  refine (addf_apply _ _ _).trans ?_
  refine congrArg₂ (· + ·) (congrFun (shapeCast_self prev _) _) ?_
  simp only [matmul, Ideal.matmul_constant_zero_apply]
  refine (Cert.LibDotRows.sum_contr_eq_rowDot dot_S1024x2048_S2048x128_S1024x128_1_0_0_1_n_n rfl rfl d1_l0 d1_l1 d1_r0 d1_r1 _ _ _).trans ?_
  unfold Cert.LibDotRows.rowDot
  refine Finset.sum_congr rfl fun j _ => ?_
  refine congrArg₂ (· * ·) rfl ?_
  exact congrFun (shapeCast_self y _) _

theorem pay3_apply (mid d : Vec Ideal S1024x128 .f32) (wt : Vec Ideal S128x128 .f32) (b : Vec Ideal S1x128 .f32)
    (p : Fin 1024) (o : Fin 128) :
    k1_pay3 (F := Ideal) mid d wt b (ix2 p o)
      = (∑ c : Fin 128, (mid (ix2 p c) * d (ix2 p c)) * wt (ix2 c o)) + b (ix2 (0 : Fin 1) o) := by
  unfold k1_pay3
  refine (addf_apply _ _ _).trans ?_
  refine congrArg₂ (· + ·) ?_ ?_
  · simp only [matmul, Ideal.matmul_constant_zero_apply]
    refine (Cert.LibDotRows.sum_contr_eq_rowDot dot_S1024x128_S128x128_S1024x128_1_0_0_1_n_n rfl rfl d2_l0 d2_l1 d2_r0 d2_r1 _ _ _).trans ?_
    unfold Cert.LibDotRows.rowDot
    refine Finset.sum_congr rfl fun c _ => ?_
    refine congrArg₂ (· * ·) ?_ (congrFun (shapeCast_self wt _) _)
    refine (mulf_apply _ _ _).trans ?_
    exact congrArg₂ (· * ·) (congrFun (shapeCast_self mid _) _) (congrFun (shapeCast_self d _) _)
  · refine (broadcastTo_1b_ab_apply _ _ p o).trans ?_
    exact congrFun (shapeCast_self b _) _

end Cert.KernelIdeal.Reg1V

end
-- ==== Proof.SpecGen.lean ====
/-
  The second kernel's result as a function of the five arrays it reads — the adjacency matrix, the scaled features Y, the
  row scales D (one row's scale repeated along the row), the transposed weights and the bias as a one-row matrix —, and that
  with Y, D, the transpose and the row what the first kernel and the two host operations make of the arguments it is the
  layer's result.
-/
import proofs.«104426_j28389733827054_2_alg».proof.Proof.Spec

noncomputable section

open scoped BigOperators

namespace Cert.Gcn

open Idealize.ShloMosaic Idealize.ShloMosaic.ValueIdx

/-- Row `r` of the adjacency matrix against column `c` of `Y`, over the `kb`-th run of 2048 columns. -/
def blkG (adj : Mat 8192 8192) (Y : Mat 8192 128) (r : Fin 8192) (c : Fin 128) (kb : Fin 4) : EReal :=
  ∑ j : Fin 2048, adj (ix2 r (col4 kb j)) * Y (ix2 (col4 kb j) c)

/-- `Y (r, c)` plus the four runs, added from the left. -/
def accG (adj : Mat 8192 8192) (Y : Mat 8192 128) (r : Fin 8192) (c : Fin 128) : EReal :=
  (((Y (ix2 r c) + blkG adj Y r c 0) + blkG adj Y r c 1) + blkG adj Y r c 2) + blkG adj Y r c 3

/-- The dense layer over the scaled total. -/
def outG (adj : Mat 8192 8192) (Y D : Mat 8192 128) (WT : Mat 128 128) (B2 : Mat 1 128) (r : Fin 8192) (o : Fin 128) : EReal :=
  (∑ c : Fin 128, (accG adj Y r c * D (ix2 r c)) * WT (ix2 c o)) + B2 (ix2 (0 : Fin 1) o)

/-- With the first kernel's two results and the host's transposed weights and one-row bias it is the layer's result. -/
theorem outG_eq_outK (x : Mat 8192 128) (adj : Mat 8192 8192) (W : Mat 128 128) (b : Vect 128)
    (Y D : Mat 8192 128) (WT : Mat 128 128) (B2 : Mat 1 128)
    (hY : ∀ (r : Fin 8192) (c : Fin 128), Y (ix2 r c) = yK x adj r c) (hD : ∀ (r : Fin 8192) (c : Fin 128), D (ix2 r c) = dinvK adj r)
    (hWT : ∀ (c o : Fin 128), WT (ix2 c o) = W (ix2 o c)) (hB : ∀ o : Fin 128, B2 (ix2 (0 : Fin 1) o) = b (ix1 o))
    (r : Fin 8192) (o : Fin 128) : outG adj Y D WT B2 r o = outK x adj W b r o := by
  unfold outG outK accG accK blkG blk
  simp only [hY, hD, hWT, hB]

end Cert.Gcn

end
-- ==== Proof.KIVal1.lean ====
/-
  The array the second pipeline leaves, as a whole-array function of the contents the region is entered with.

  Grid point t = 4 i + k works on rows 1024 i … 1024 i + 1023 and, of the adjacency matrix and the scaled features, on
  columns (resp. rows) 2048 k … 2048 k + 2047. The output block of row block i is written back after k = 3 only; by then it
  holds the dense layer of: the row block's own scaled features, plus the four products taken at k = 0, 1, 2, 3 in turn.
  So what point 4 i + 3 writes back is the restriction to row block i of one function of the entry contents, and the
  eight row blocks cover the array.
-/
import proofs.«104426_j28389733827054_2_alg».proof.Proof.KIVal1a
import proofs.«104426_j28389733827054_2_alg».proof.Proof.KIVal1b
import proofs.«104426_j28389733827054_2_alg».proof.Proof.SpecGen

noncomputable section

namespace Cert.KernelIdeal.Reg1V

open Cert.KernelIdeal Cert.KernelIdeal.Gen Cert.KernelIdeal.Reg1 Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where a block sits in its array -/

/-- At point t = 4 i + k: the adjacency block is block (i, k); the scaled features' block for the products is block (k, 0);
    the own features', the row scales' and the output's blocks are block (i, 0); the weights and the bias are whole. -/
theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

/-- The adjacency block at point t, entry (p, j): the adjacency matrix at (1024 (t / 4) + p, 2048 (t mod 4) + j). -/
theorem iblk1_0_apply (c : Dev nD) (t : Fin cfg1.N) (p : Fin 1024) (j : Fin 2048) (r col : Fin 8192)
    (hr : r.val = 1024 * (t.val / 4) + p.val) (hc : col.val = 2048 * (t.val % 4) + j.val) :
    (iblk1 V c 0 t : Vec Ideal S1024x2048 .f32) (ix2 p j) = (V c main_arg1 : Mat 8192 8192) (ix2 r col) := by
  obtain ⟨e0, e1, -⟩ := idx_facts1 t
  show V c main_arg1 (((cfg1.win 0).blk t).view.emb (ix2 p j)) = V c main_arg1 (ix2 r col)
  refine congrArg (V c main_arg1) (funext fun a => Fin.ext ?_)
  match a with
  | ⟨0, _⟩ => show win1_0.index t (0 : Fin 2) * 1024 + 1 * p.val = r.val; omega
  | ⟨1, _⟩ => show win1_0.index t (1 : Fin 2) * 2048 + 1 * j.val = col.val; omega

/-- The scaled features' block for the products at point t, entry (j, q): the array at (2048 (t mod 4) + j, q). -/
theorem iblk1_1_apply (c : Dev nD) (t : Fin cfg1.N) (j : Fin 2048) (q : Fin 128) (row : Fin 8192)
    (hr : row.val = 2048 * (t.val % 4) + j.val) :
    (iblk1 V c 1 t : Vec Ideal S2048x128 .f32) (ix2 j q) = (V c main_v0_0 : Mat 8192 128) (ix2 row q) := by
  obtain ⟨-, -, e0, e1, -⟩ := idx_facts1 t
  show V c main_v0_0 (((cfg1.win 1).blk t).view.emb (ix2 j q)) = V c main_v0_0 (ix2 row q)
  refine congrArg (V c main_v0_0) (funext fun a => Fin.ext ?_)
  match a with
  | ⟨0, _⟩ => show win1_1.index t (0 : Fin 2) * 2048 + 1 * j.val = row.val; omega
  | ⟨1, _⟩ => show win1_1.index t (1 : Fin 2) * 128 + 1 * q.val = q.val; omega

/-- The row block's own scaled features at point t, entry (p, q): the array at (1024 (t / 4) + p, q). -/
theorem iblk1_2_apply (c : Dev nD) (t : Fin cfg1.N) (p : Fin 1024) (q : Fin 128) (r : Fin 8192)
    (hr : r.val = 1024 * (t.val / 4) + p.val) :
    (iblk1 V c 2 t : Vec Ideal S1024x128 .f32) (ix2 p q) = (V c main_v0_0 : Mat 8192 128) (ix2 r q) := by
  obtain ⟨-, -, -, -, e0, e1, -⟩ := idx_facts1 t
  show V c main_v0_0 (((cfg1.win 2).blk t).view.emb (ix2 p q)) = V c main_v0_0 (ix2 r q)
  refine congrArg (V c main_v0_0) (funext fun a => Fin.ext ?_)
  match a with
  | ⟨0, _⟩ => show win1_2.index t (0 : Fin 2) * 1024 + 1 * p.val = r.val; omega
  | ⟨1, _⟩ => show win1_2.index t (1 : Fin 2) * 128 + 1 * q.val = q.val; omega

/-- The row scales' block at point t, entry (p, q): the array at (1024 (t / 4) + p, q). -/
theorem iblk1_3_apply (c : Dev nD) (t : Fin cfg1.N) (p : Fin 1024) (q : Fin 128) (r : Fin 8192)
    (hr : r.val = 1024 * (t.val / 4) + p.val) :
    (iblk1 V c 3 t : Vec Ideal S1024x128 .f32) (ix2 p q) = (V c main_v0_1 : Mat 8192 128) (ix2 r q) := by
  obtain ⟨-, -, -, -, -, -, e0, e1, -⟩ := idx_facts1 t
  show V c main_v0_1 (((cfg1.win 3).blk t).view.emb (ix2 p q)) = V c main_v0_1 (ix2 r q)
  refine congrArg (V c main_v0_1) (funext fun a => Fin.ext ?_)
  match a with
  | ⟨0, _⟩ => show win1_3.index t (0 : Fin 2) * 1024 + 1 * p.val = r.val; omega
  | ⟨1, _⟩ => show win1_3.index t (1 : Fin 2) * 128 + 1 * q.val = q.val; omega

/-- The transposed weights' block is the whole array. -/
theorem iblk1_4_apply (c : Dev nD) (t : Fin cfg1.N) (a b : Fin 128) :
    (iblk1 V c 4 t : Vec Ideal S128x128 .f32) (ix2 a b) = (V c main_v1 : Mat 128 128) (ix2 a b) := by
  obtain ⟨-, -, -, -, -, -, -, -, e0, e1, -⟩ := idx_facts1 t
  show V c main_v1 (((cfg1.win 4).blk t).view.emb (ix2 a b)) = V c main_v1 (ix2 a b)
  refine congrArg (V c main_v1) (funext fun x => Fin.ext ?_)
  match x with
  | ⟨0, _⟩ => show win1_4.index t (0 : Fin 2) * 128 + 1 * a.val = a.val; omega
  | ⟨1, _⟩ => show win1_4.index t (1 : Fin 2) * 128 + 1 * b.val = b.val; omega

/-- The bias row's block is the whole array. -/
theorem iblk1_5_apply (c : Dev nD) (t : Fin cfg1.N) (b : Fin 128) :
    (iblk1 V c 5 t : Vec Ideal S1x128 .f32) (ix2 (0 : Fin 1) b) = (V c main_v2 : Mat 1 128) (ix2 (0 : Fin 1) b) := by
  obtain ⟨-, -, -, -, -, -, -, -, -, -, e0, e1, -⟩ := idx_facts1 t
  show V c main_v2 (((cfg1.win 5).blk t).view.emb (ix2 (0 : Fin 1) b)) = V c main_v2 (ix2 (0 : Fin 1) b)
  refine congrArg (V c main_v2) (funext fun x => Fin.ext ?_)
  match x with
  | ⟨0, _⟩ => show win1_5.index t (0 : Fin 2) * 1 + 1 * (0 : Fin 1).val = (0 : Fin 1).val; omega
  | ⟨1, _⟩ => show win1_5.index t (1 : Fin 2) * 128 + 1 * b.val = b.val; omega

/-! ## The output block after the fourth product -/

/-- One step of the accumulation read at an entry: the previous value plus the run of 2048 products of point t. -/
theorem acc_step (c : Dev nD) (t : Fin cfg1.N) (kb : Fin 4) (hk : t.val % 4 = kb.val) (prev : Vec Ideal S1024x128 .f32)
    (p : Fin 1024) (q : Fin 128) (r : Fin 8192) (hr : r.val = 1024 * (t.val / 4) + p.val) :
    k1_pay2 (F := Ideal) (iblk1 V c 0 t) (iblk1 V c 1 t) prev (ix2 p q)
      = prev (ix2 p q) + blkG (V c main_arg1) (V c main_v0_0) r q kb := by
  refine (pay2_apply (iblk1 V c 0 t) (iblk1 V c 1 t) prev p q).trans ?_
  refine congrArg (prev (ix2 p q) + ·) ?_
  unfold blkG
  refine Finset.sum_congr rfl fun j _ => ?_
  refine congrArg₂ (· * ·) ?_ ?_
  · exact iblk1_0_apply V c t p j r (col4 kb j) hr (by show 2048 * kb.val + j.val = _; omega)
  · exact iblk1_1_apply V c t j q (col4 kb j) (by show 2048 * kb.val + j.val = _; omega)

/-- What the output window's buffer holds after a point with k = 3, at an entry: the layer's result for that row. -/
theorem outsAt1_k3_apply (c : Dev nD) (t : Fin cfg1.N) (h3 : t.val % 4 = 3) (p : Fin 1024) (o : Fin 128) (r : Fin 8192)
    (hr : r.val = 1024 * (t.val / 4) + p.val) :
    (outsAt1 V c t.val t.isLt : Vec Ideal S1024x128 .f32) (ix2 p o)
      = outG (V c main_arg1) (V c main_v0_0) (V c main_v0_1) (V c main_v1) (V c main_v2) r o := by
  have hN : cfg1.N = 32 := N_1
  have ht := t.isLt
  -- the three points before t
  have ht1 : t.val - 1 < cfg1.N := by omega
  have ht2 : t.val - 1 - 1 < cfg1.N := by omega
  have ht3 : t.val - 1 - 1 - 1 < cfg1.N := by omega
  have e0 : outsAt1 V c t.val t.isLt = _ := outsAt1_C V c t (by omega) h3
  have e1 : outsAt1 V c (t.val - 1) ht1 = _ := outsAt1_B V c ⟨t.val - 1, ht1⟩ (by show ¬ (t.val - 1) % 4 = 0; omega) (by show ¬ (t.val - 1) % 4 = 3; omega)
  have e2 : outsAt1 V c (t.val - 1 - 1) ht2 = _ := outsAt1_B V c ⟨t.val - 1 - 1, ht2⟩ (by show ¬ (t.val - 1 - 1) % 4 = 0; omega) (by show ¬ (t.val - 1 - 1) % 4 = 3; omega)
  have e3 : outsAt1 V c (t.val - 1 - 1 - 1) ht3 = _ := outsAt1_A V c ⟨t.val - 1 - 1 - 1, ht3⟩ (by show (t.val - 1 - 1 - 1) % 4 = 0; omega)
  rw [e0, out1_C_eq, e1, out1_B_eq, e2, out1_B_eq, e3, out1_A_eq, pay1_eq]
  refine (pay3_apply _ _ _ _ p o).trans ?_
  unfold outG
  refine congrArg₂ (· + ·) (Finset.sum_congr rfl fun q _ => ?_) (iblk1_5_apply V c t o)
  refine congrArg₂ (· * ·) (congrArg₂ (· * ·) ?_ (iblk1_3_apply V c t p q r hr)) (iblk1_4_apply V c t q o)
  unfold accG
  refine (acc_step V c t 3 h3 _ p q r hr).trans ?_
  refine congrArg (· + blkG (V c main_arg1) (V c main_v0_0) r q 3) ?_
  refine (acc_step V c ⟨t.val - 1, ht1⟩ 2 (by show (t.val - 1) % 4 = 2; omega) _ p q r (by show r.val = 1024 * ((t.val - 1) / 4) + p.val; omega)).trans ?_
  refine congrArg (· + blkG (V c main_arg1) (V c main_v0_0) r q 2) ?_
  refine (acc_step V c ⟨t.val - 1 - 1, ht2⟩ 1 (by show (t.val - 1 - 1) % 4 = 1; omega) _ p q r (by show r.val = 1024 * ((t.val - 1 - 1) / 4) + p.val; omega)).trans ?_
  refine congrArg (· + blkG (V c main_arg1) (V c main_v0_0) r q 1) ?_
  refine (acc_step V c ⟨t.val - 1 - 1 - 1, ht3⟩ 0 (by show (t.val - 1 - 1 - 1) % 4 = 0; omega) _ p q r (by show r.val = 1024 * ((t.val - 1 - 1 - 1) / 4) + p.val; omega)).trans ?_
  refine congrArg (· + blkG (V c main_arg1) (V c main_v0_0) r q 0) ?_
  exact iblk1_2_apply V c ⟨t.val - 1 - 1 - 1, ht3⟩ p q r (by show r.val = 1024 * ((t.val - 1 - 1 - 1) / 4) + p.val; omega)

/-! ## From blocks to the array -/

/-- The array the region leaves, as a function of its entry contents. -/
def G6 (c : Dev nD) : S8192x128.Idx → EReal :=
  fun i => outG (V c main_arg1) (V c main_v0_0) (V c main_v0_1) (V c main_v1) (V c main_v2) (i 0) (i 1)

/-- What a point with k = 3 writes back is its row block of `G6`. -/
theorem flushed1_6_eq (c : Dev nD) (t : Fin cfg1.N) (hf : (cfg1.win 6).flush t = true) :
    (dat1 V c).flushed 6 t = ((cfg1.win 6).blk t).view.read (Elt Ideal) (G6 V c) := by
  have h3 : t.val % 4 = 3 := (flush1_6 t).mp hf
  show (cfg1.win 6).cut (grid1.coords t) ((dat1 V c).after 6 t) = _
  rw [after1_6]
  obtain ⟨-, -, -, -, -, -, -, -, -, -, -, -, e0, e1⟩ := idx_facts1 t
  have hN : cfg1.N = 32 := N_1
  have ht := t.isLt
  funext y
  obtain ⟨p, o, rfl⟩ : ∃ (p : Fin 1024) (o : Fin 128), y = ix2 p o := ⟨y 0, y 1, eq_ix2 y⟩
  show (outsAt1 V c t.val t.isLt : Vec Ideal S1024x128 .f32) (ix2 p o)
    = outG (V c main_arg1) (V c main_v0_0) (V c main_v0_1) (V c main_v1) (V c main_v2)
        ((((cfg1.win 6).blk t).view.emb (ix2 p o)) 0) ((((cfg1.win 6).blk t).view.emb (ix2 p o)) 1)
  refine (outsAt1_k3_apply V c t h3 p o ⟨1024 * (t.val / 4) + p.val, by have := p.isLt; omega⟩ rfl).trans ?_
  refine congrArg₂ (outG (V c main_arg1) (V c main_v0_0) (V c main_v0_1) (V c main_v1) (V c main_v2)) (Fin.ext ?_) (Fin.ext ?_)
  · show 1024 * (t.val / 4) + p.val = win1_6.index t (0 : Fin 2) * 1024 + 1 * p.val; omega
  · show o.val = win1_6.index t (1 : Fin 2) * 128 + 1 * o.val; omega

/-- An index of the result array is in point t's block iff each coordinate is in the block's range. -/
theorem mem_blk1_6 (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v3).slice (win1_6.rect t)).set ↔ _
  rw [View.set_slice_whole, Rect.mem_set_unit]
  exact Iff.rfl

/-- Row r lies in the block written back after point 4 (r / 1024) + 3. -/
theorem cover1_6 (i : S8192x128.Idx) : ∃ t : Fin cfg1.N, (cfg1.win 6).flush t = true ∧ i ∈ ((cfg1.win 6).blk t).view.set := by
  have hN : cfg1.N = 32 := N_1
  have hi0 : (i 0).val < 8192 := (i 0).isLt
  have hi1 : (i 1).val < 128 := (i 1).isLt
  obtain ⟨t, ht⟩ : ∃ t : Fin cfg1.N, t.val = 4 * ((i 0).val / 1024) + 3 := ⟨⟨4 * ((i 0).val / 1024) + 3, by omega⟩, rfl⟩
  obtain ⟨-, -, -, -, -, -, -, -, -, -, -, -, e0, e1⟩ := idx_facts1 t
  refine ⟨t, (flush1_6 t).mpr (by omega), ?_⟩
  rw [mem_blk1_6]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 128 ≤ (i 1).val ∧ (i 1).val < win1_6.index t (1 : Fin 2) * 128 + 128; omega

/-- The result array when the region is left. -/
theorem final1_6 (c : Dev nD) : (dat1 (F := Ideal) V c).arrAt 6 cfg1.N = G6 V c :=
  (dat1 V c).arrAt_eq_of_cover 6 _ (fun t hf => flushed1_6_eq V c t hf) cover1_6

end Cert.KernelIdeal.Reg1V

end
-- ==== Proof.RefSpec.lean ====
/-
  The layer's result as one function of the four argument arrays, index by index, on the extended reals, in the
  arrangement the reference computes it in.

  The adjacency matrix with self loops is `aHat (r, j) = adj (r, j) + loop (r, j)`, where `loop (r, j)` is the
  conversion to a float of the one-bit answer to "is `r + 0 = j` as 32-bit integers" (one on the diagonal, zero off it).
  Row `r` has degree `degR r = 0 + sum over all 8192 columns j of aHat (r, j)`; its scale is `degR r` to the power
  `-1/2`, replaced by `0` where that is infinite. The normalised matrix is `(aHat (r, j) * scale r) * scale j`, the
  aggregated features are its product with `x`, and the dense layer is the sum over `c` of that times `W (o, c)`,
  plus `b o`.
-/
import proofs.«104426_j28389733827054_2_alg».proof.Proof.Spec

noncomputable section

open scoped BigOperators

namespace Cert.Gcn

open Idealize.ShloMosaic Idealize.ShloMosaic.ValueIdx

/-- The float literal `-1/2` of the reference. -/
abbrev negHalf32 : EReal := Ideal.ofBits .f32 0xBF000000#32

/-- The self loop's entry: the one-bit comparison of `r + 0` with `j` as 32-bit integers, read as a float. -/
def loop (r j : Fin 8192) : EReal :=
  FloatOps.uitofp (F := Ideal) .f32
    (IntOp.cmpi .eq (IntOp.addi (BitVec.ofNat 32 r.val) (0#32 : BitVec 32)) (BitVec.ofNat 32 j.val))

/-- The adjacency matrix with self loops. -/
def aHat (adj : Mat 8192 8192) (r j : Fin 8192) : EReal := adj (ix2 r j) + loop r j

/-- The degree of row `r`: the sum of the whole row, from zero. -/
def degR (adj : Mat 8192 8192) (r : Fin 8192) : EReal := zero32 + ∑ j : Fin 8192, aHat adj r j

/-- `p`, and `0` where `p` is infinite. -/
def finiteOr0 (p : EReal) : EReal :=
  Scalar.select
    (FloatOps.cmpf (F := Ideal) (φ := .f32) .oeq (FloatOps.absf (F := Ideal) (φ := .f32) p) inf32)
    zero32 p

/-- Row `r`'s scale: the degree to the power `-1/2`, and `0` where that is infinite. -/
def dinvR (adj : Mat 8192 8192) (r : Fin 8192) : EReal := finiteOr0 (Ideal.pow (degR adj r) negHalf32)

/-- The normalised adjacency matrix. -/
def normR (adj : Mat 8192 8192) (r j : Fin 8192) : EReal := (aHat adj r j * dinvR adj r) * dinvR adj j

/-- The aggregated features. -/
def supR (x : Mat 8192 128) (adj : Mat 8192 8192) (r : Fin 8192) (c : Fin 128) : EReal :=
  ∑ j : Fin 8192, normR adj r j * x (ix2 j c)

/-- The layer's result at row `r`, output feature `o`. -/
def outR (x : Mat 8192 128) (adj : Mat 8192 8192) (W : Mat 128 128) (b : Vect 128) (r : Fin 8192) (o : Fin 128) : EReal :=
  (∑ c : Fin 128, supR x adj r c * W (ix2 o c)) + b (ix1 o)

/-- The layer's result as an array. -/
def RefG (x : Mat 8192 128) (adj : Mat 8192 8192) (W : Mat 128 128) (b : Vect 128) : Mat 8192 128 :=
  fun i => outR x adj W b (i 0) (i 1)

end Cert.Gcn

end
-- ==== Proof.MathConst.lean ====
/-
  The float literals of the two arrangements as extended reals, the self loop's entry as a zero or a one, and the two
  scale functions on a real argument.

  Both arrangements scale a row by its degree `d` to the power `-1/2` with infinite answers replaced by zero; one writes
  it as the reciprocal square root, the other as a real power. On a real `d` both are the same real number `rs d`:
  `1 / sqrt d` for `d > 0` and `0` otherwise. For the reciprocal square root the answers at `d = 0` and `d < 0` are the two
  infinities, which the replacement sends to zero. For the real power, `0` to a nonzero power is `0`, and a negative base
  to the power `y` is `exp (y log |d|) cos (pi y)`, which at `y = -1/2` has the factor `cos (-pi/2) = 0`.
-/
import proofs.«104426_j28389733827054_2_alg».proof.Proof.RefSpec
import Idealize.ShloMosaic.PureOps.Ideal.Laws

noncomputable section

open scoped BigOperators

namespace Cert.Gcn

open Idealize.ShloMosaic Idealize.ShloMosaic.ValueIdx

/-! ## The literals -/

theorem zero32_eq : zero32 = 0 := Ideal.ofBits_zero_f32
theorem one32_eq : one32 = 1 := by
  show Ideal.ofBits .f32 0x3F800000#32 = 1
  simp [Ideal.ofBits, Ideal.ieee, -EReal.coe_mul]; norm_num
theorem inf32_eq : inf32 = ⊤ := by
  show Ideal.ofBits .f32 0x7F800000#32 = ⊤
  simp [Ideal.ofBits, Ideal.ieee]
theorem negHalf32_eq : negHalf32 = ((-(1 / 2) : ℝ) : EReal) := by
  show Ideal.ofBits .f32 0xBF000000#32 = _
  simp [Ideal.ofBits, Ideal.ieee, -EReal.coe_mul]; norm_num

/-! ## The self loop -/

/-- The self loop's entry is one on the diagonal and zero off it. -/
theorem loop_eq (r j : Fin 8192) : loop r j = ((if r = j then 1 else 0 : ℝ) : EReal) := by
  have hr : r.val < 2 ^ 32 := lt_trans r.isLt (by norm_num)
  have hj : j.val < 2 ^ 32 := lt_trans j.isLt (by norm_num)
  have hb : (BitVec.ofNat 32 r.val = BitVec.ofNat 32 j.val) ↔ r = j := by
    constructor
    · intro h
      have := congrArg BitVec.toNat h
      rw [BitVec.toNat_ofNat, BitVec.toNat_ofNat, Nat.mod_eq_of_lt hr, Nat.mod_eq_of_lt hj] at this
      exact Fin.ext this
    · rintro rfl; rfl
  show (((IntOp.cmpi .eq (IntOp.addi (BitVec.ofNat 32 r.val) (0#32 : BitVec 32)) (BitVec.ofNat 32 j.val)).toNat : ℝ) : EReal) = _
  have ha : IntOp.addi (BitVec.ofNat 32 r.val) (0#32 : BitVec 32) = BitVec.ofNat 32 r.val := by
    simp [IntOp.addi]
  rw [ha]
  by_cases h : r = j
  · rw [if_pos h, h]; simp [IntOp.cmpi]
  · rw [if_neg h]
    have : ¬ (BitVec.ofNat 32 r.val = BitVec.ofNat 32 j.val) := fun e => h (hb.1 e)
    simp [IntOp.cmpi, this]

/-! ## The scales -/

/-- `1 / sqrt d` for a positive `d`, and `0` otherwise. -/
def rs (d : ℝ) : ℝ := if 0 < d then (Real.sqrt d)⁻¹ else 0

theorem finiteOr0_coe (p : ℝ) : finiteOr0 (p : EReal) = (p : EReal) := by
  have h : ¬ (max (p : EReal) (-(p : EReal)) = ⊤) := by
    rcases max_choice (p : EReal) (-(p : EReal)) with e | e
    · rw [e]; exact EReal.coe_ne_top p
    · rw [e, ← EReal.coe_neg]; exact EReal.coe_ne_top _
  simp only [finiteOr0, Ideal.cmpf_def, Ideal.absf_def, Ideal.cmp, inf32_eq, Scalar.select]
  simp [h]
theorem finiteOr0_top : finiteOr0 ⊤ = 0 := by
  simp only [finiteOr0, Ideal.cmpf_def, Ideal.absf_def, Ideal.cmp, inf32_eq, zero32_eq, Scalar.select]
  simp
theorem finiteOr0_bot : finiteOr0 ⊥ = 0 := by
  simp only [finiteOr0, Ideal.cmpf_def, Ideal.absf_def, Ideal.cmp, inf32_eq, zero32_eq, Scalar.select]
  simp

/-- The reciprocal square root with infinities replaced by zero, on a real argument. -/
theorem dinvOf_coe (d : ℝ) : dinvOf (d : EReal) = ((rs d : ℝ) : EReal) := by
  show finiteOr0 (Ideal.rsqrt (d : EReal)) = _
  rw [Ideal.rsqrt_coe, rs]
  by_cases h1 : d < 0
  · rw [if_pos h1, finiteOr0_bot, if_neg (not_lt.mpr h1.le), EReal.coe_zero]
  · rw [if_neg h1]
    by_cases h2 : d = 0
    · rw [if_pos h2, finiteOr0_top, if_neg (by rw [h2]; exact lt_irrefl _), EReal.coe_zero]
    · rw [if_neg h2, finiteOr0_coe, if_pos (lt_of_le_of_ne (not_lt.mp h1) (Ne.symm h2))]

/-- A real to the power `-1/2`. -/
theorem rpow_negHalf (d : ℝ) : Real.rpow d (-(1 / 2)) = rs d := by
  show d ^ (-(1 / 2) : ℝ) = rs d
  rw [rs]
  rcases lt_trichotomy d 0 with h | h | h
  · rw [if_neg (not_lt.mpr h.le), Real.rpow_def_of_neg h]
    have : Real.cos (-(1 / 2) * Real.pi) = 0 := by
      rw [show -(1 / 2) * Real.pi = -(Real.pi / 2) by ring, Real.cos_neg, Real.cos_pi_div_two]
    rw [this, mul_zero]
  · rw [h, if_neg (lt_irrefl _), Real.zero_rpow (by norm_num)]
  · rw [if_pos h, Real.rpow_neg h.le, Real.sqrt_eq_rpow]

/-- The real power `-1/2` with infinities replaced by zero, on a real argument. -/
theorem powScale_coe (d : ℝ) : finiteOr0 (Ideal.pow (d : EReal) negHalf32) = ((rs d : ℝ) : EReal) := by
  rw [negHalf32_eq, Ideal.pow_coe_coe, finiteOr0_coe, rpow_negHalf]

end Cert.Gcn

end
-- ==== Proof.MathSum.lean ====
/-
  Two facts about finite sums. The inclusion of the reals in the extended reals carries a finite sum to the sum of the
  images. A sum over the 8192 columns is the sum, over the eight runs of 1024 columns (or the four runs of 2048), of
  the sums over each run: column `1024 * kb + j` is the pair `(kb, j)`.
-/
import proofs.«104426_j28389733827054_2_alg».proof.Proof.Spec
import Mathlib.Algebra.BigOperators.Fin
import Mathlib.Logic.Equiv.Fin.Basic

noncomputable section

open scoped BigOperators

namespace Cert.Gcn

/-- The inclusion of the reals carries a finite sum to the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over all columns, taken in eight runs of 1024. -/
theorem sum_col8 {M : Type*} [AddCommMonoid M] (f : Fin 8192 → M) :
    ∑ j, f j = ∑ kb : Fin 8, ∑ j : Fin 1024, f (col8 kb j) := by
  have e : ∑ j, f j = ∑ p : Fin 8 × Fin 1024, f (finProdFinEquiv p) :=
    (Equiv.sum_comp (finProdFinEquiv (m := 8) (n := 1024)) f).symm
  rw [e, Fintype.sum_prod_type]
  refine Finset.sum_congr rfl fun kb _ => Finset.sum_congr rfl fun j _ => congrArg f (Fin.ext ?_)
  show j.val + 1024 * kb.val = 1024 * kb.val + j.val
  omega

/-- A sum over all columns, taken in four runs of 2048. -/
theorem sum_col4 {M : Type*} [AddCommMonoid M] (f : Fin 8192 → M) :
    ∑ j, f j = ∑ kb : Fin 4, ∑ j : Fin 2048, f (col4 kb j) := by
  have e : ∑ j, f j = ∑ p : Fin 4 × Fin 2048, f (finProdFinEquiv p) :=
    (Equiv.sum_comp (finProdFinEquiv (m := 4) (n := 2048)) f).symm
  rw [e, Fintype.sum_prod_type]
  refine Finset.sum_congr rfl fun kb _ => Finset.sum_congr rfl fun j _ => congrArg f (Fin.ext ?_)
  show j.val + 2048 * kb.val = 2048 * kb.val + j.val
  omega

end Cert.Gcn

end
-- ==== Proof.MathLaw.lean ====
/-
  The algebraic law: on real inputs the two arrangements of the layer give the same extended reals.

  Every input entry is a real number, so every quantity of either arrangement is the image of a real number: the row
  sums, the degrees `rowSum r + 1`, the scales `s r = rs (rowSum r + 1)` (the same real function for both
  arrangements), the scaled features, the aggregated features, the result. Written over the reals the two results
  differ by the order of finite sums and by distributivity only. With `a (r, j)` the adjacency entry and `e (r, j)`
  the self loop's zero or one,
    sum over j of ((a (r, j) + e (r, j)) * s r) * s j * x (j, c)
      = s r * (sum over j of a (r, j) * (s j * x (j, c))) + s r * s r * x (r, c)
      = (s r * x (r, c) + sum over j of a (r, j) * (s j * x (j, c))) * s r,
  where the sum over all 8192 columns is the sum of its four runs of 2048 (for the features) or eight runs of 1024 (for
  the degree).
-/
import proofs.«104426_j28389733827054_2_alg».proof.Proof.MathConst
import proofs.«104426_j28389733827054_2_alg».proof.Proof.MathSum

noncomputable section

open scoped BigOperators

namespace Cert.Gcn

open Idealize.ShloMosaic Idealize.ShloMosaic.ValueIdx

/-- A matrix of reals, indexed as the arrays are. -/
abbrev RMat (a b : Nat) : Type := (⟨2, ![a, b]⟩ : Shape).Idx → ℝ
/-- A vector of reals. -/
abbrev RVect (a : Nat) : Type := (⟨1, ![a]⟩ : Shape).Idx → ℝ

/-- A real matrix as a matrix of extended reals. -/
def cm {a b : Nat} (A : RMat a b) : Mat a b := fun i => (A i : EReal)
/-- A real vector as a vector of extended reals. -/
def cv {a : Nat} (v : RVect a) : Vect a := fun i => (v i : EReal)
theorem cm_apply {a b : Nat} (A : RMat a b) (i : (⟨2, ![a, b]⟩ : Shape).Idx) : cm A i = (A i : EReal) := rfl
theorem cv_apply {a : Nat} (v : RVect a) (i : (⟨1, ![a]⟩ : Shape).Idx) : cv v i = (v i : EReal) := rfl

variable (X : RMat 8192 128) (A : RMat 8192 8192) (Wr : RMat 128 128) (B : RVect 128)

/-- The sum of row `r` of the adjacency matrix. -/
def rowSum (r : Fin 8192) : ℝ := ∑ j : Fin 8192, A (ix2 r j)
/-- Row `r`'s scale, as a real. -/
def sR (r : Fin 8192) : ℝ := rs (rowSum A r + 1)
/-- Row `r` of the adjacency matrix against column `c` of the scaled features, as a real. -/
def aggR (r : Fin 8192) (c : Fin 128) : ℝ := ∑ j : Fin 8192, A (ix2 r j) * (sR A j * X (ix2 j c))

/-! ## The kernels' arrangement -/

theorem chunk_coe (r : Fin 8192) (kb : Fin 8) :
    chunk (cm A) r kb = ((∑ j : Fin 1024, A (ix2 r (col8 kb j)) : ℝ) : EReal) := by
  rw [coe_sum]; rfl

theorem degK_coe (r : Fin 8192) : degK (cm A) r = ((rowSum A r + 1 : ℝ) : EReal) := by
  have hs : rowSum A r = ∑ kb : Fin 8, ∑ j : Fin 1024, A (ix2 r (col8 kb j)) :=
    sum_col8 (fun j => A (ix2 r j))
  simp only [degK, chunk_coe, zero32_eq, one32_eq, ← EReal.coe_zero, ← EReal.coe_one, ← EReal.coe_add]
  rw [EReal.coe_eq_coe_iff, hs, Fin.sum_univ_eight]
  ring

theorem dinvK_coe (r : Fin 8192) : dinvK (cm A) r = ((sR A r : ℝ) : EReal) := by
  rw [dinvK, degK_coe, dinvOf_coe]; rfl

theorem yK_coe (r : Fin 8192) (c : Fin 128) :
    yK (cm X) (cm A) r c = ((sR A r * X (ix2 r c) : ℝ) : EReal) := by
  rw [yK, dinvK_coe, cm_apply, ← EReal.coe_mul]

theorem blk_coe (r : Fin 8192) (c : Fin 128) (kb : Fin 4) :
    blk (cm X) (cm A) r c kb
      = ((∑ j : Fin 2048, A (ix2 r (col4 kb j)) * (sR A (col4 kb j) * X (ix2 (col4 kb j) c)) : ℝ) : EReal) := by
  rw [blk, coe_sum]
  refine Finset.sum_congr rfl fun j _ => ?_
  rw [yK_coe, cm_apply, ← EReal.coe_mul]

theorem accK_coe (r : Fin 8192) (c : Fin 128) :
    accK (cm X) (cm A) r c = ((sR A r * X (ix2 r c) + aggR X A r c : ℝ) : EReal) := by
  have hs : aggR X A r c
      = ∑ kb : Fin 4, ∑ j : Fin 2048, A (ix2 r (col4 kb j)) * (sR A (col4 kb j) * X (ix2 (col4 kb j) c)) :=
    sum_col4 (fun j => A (ix2 r j) * (sR A j * X (ix2 j c)))
  simp only [accK, yK_coe, blk_coe, ← EReal.coe_add]
  rw [EReal.coe_eq_coe_iff, hs, Fin.sum_univ_four]
  ring

theorem outK_coe (r : Fin 8192) (o : Fin 128) :
    outK (cm X) (cm A) (cm Wr) (cv B) r o
      = (((∑ c : Fin 128, ((sR A r * X (ix2 r c) + aggR X A r c) * sR A r) * Wr (ix2 o c)) + B (ix1 o) : ℝ) : EReal) := by
  have hc : ∀ c : Fin 128, (accK (cm X) (cm A) r c * dinvK (cm A) r) * cm Wr (ix2 o c)
      = ((((sR A r * X (ix2 r c) + aggR X A r c) * sR A r) * Wr (ix2 o c) : ℝ) : EReal) := by
    intro c
    rw [accK_coe, dinvK_coe, cm_apply, ← EReal.coe_mul, ← EReal.coe_mul]
  rw [outK, Finset.sum_congr rfl fun c _ => hc c, ← coe_sum, cv_apply, ← EReal.coe_add]

/-! ## The reference's arrangement -/

theorem aHat_coe (r j : Fin 8192) :
    aHat (cm A) r j = ((A (ix2 r j) + (if r = j then 1 else 0) : ℝ) : EReal) := by
  rw [aHat, loop_eq, cm_apply, ← EReal.coe_add]

theorem degR_coe (r : Fin 8192) : degR (cm A) r = ((rowSum A r + 1 : ℝ) : EReal) := by
  have h : (∑ j : Fin 8192, (A (ix2 r j) + (if r = j then 1 else 0 : ℝ))) = rowSum A r + 1 := by
    rw [Finset.sum_add_distrib, Finset.sum_ite_eq, if_pos (Finset.mem_univ _)]; rfl
  rw [degR, zero32_eq, zero_add, ← h, coe_sum]
  exact Finset.sum_congr rfl fun j _ => aHat_coe A r j

theorem dinvR_coe (r : Fin 8192) : dinvR (cm A) r = ((sR A r : ℝ) : EReal) := by
  rw [dinvR, degR_coe, powScale_coe]; rfl

theorem normR_coe (r j : Fin 8192) :
    normR (cm A) r j = ((((A (ix2 r j) + (if r = j then 1 else 0)) * sR A r) * sR A j : ℝ) : EReal) := by
  rw [normR, aHat_coe, dinvR_coe, dinvR_coe, ← EReal.coe_mul, ← EReal.coe_mul]

theorem supR_coe (r : Fin 8192) (c : Fin 128) :
    supR (cm X) (cm A) r c
      = ((∑ j : Fin 8192, (((A (ix2 r j) + (if r = j then 1 else 0)) * sR A r) * sR A j) * X (ix2 j c) : ℝ) : EReal) := by
  rw [supR, coe_sum]
  refine Finset.sum_congr rfl fun j _ => ?_
  rw [normR_coe, cm_apply, ← EReal.coe_mul]

/-- Over the reals: the reference's aggregated features are the kernels', scaled. -/
theorem sup_real (r : Fin 8192) (c : Fin 128) :
    (∑ j : Fin 8192, (((A (ix2 r j) + (if r = j then 1 else 0)) * sR A r) * sR A j) * X (ix2 j c))
      = (sR A r * X (ix2 r c) + aggR X A r c) * sR A r := by
  have hj : ∀ j : Fin 8192,
      (((A (ix2 r j) + (if r = j then 1 else 0)) * sR A r) * sR A j) * X (ix2 j c)
        = sR A r * (A (ix2 r j) * (sR A j * X (ix2 j c)))
          + (if r = j then sR A r * sR A r * X (ix2 r c) else 0) := by
    intro j
    by_cases h : r = j
    · subst h; rw [if_pos rfl, if_pos rfl]; ring
    · rw [if_neg h, if_neg h]; ring
  rw [Finset.sum_congr rfl fun j _ => hj j, Finset.sum_add_distrib, ← Finset.mul_sum, Finset.sum_ite_eq,
    if_pos (Finset.mem_univ _)]
  show sR A r * aggR X A r c + sR A r * sR A r * X (ix2 r c) = _
  ring

theorem outR_coe (r : Fin 8192) (o : Fin 128) :
    outR (cm X) (cm A) (cm Wr) (cv B) r o
      = (((∑ c : Fin 128, ((sR A r * X (ix2 r c) + aggR X A r c) * sR A r) * Wr (ix2 o c)) + B (ix1 o) : ℝ) : EReal) := by
  have hc : ∀ c : Fin 128, supR (cm X) (cm A) r c * cm Wr (ix2 o c)
      = ((((sR A r * X (ix2 r c) + aggR X A r c) * sR A r) * Wr (ix2 o c) : ℝ) : EReal) := by
    intro c
    rw [supR_coe, cm_apply, ← EReal.coe_mul, sup_real]
  rw [outR, Finset.sum_congr rfl fun c _ => hc c, ← coe_sum, cv_apply, ← EReal.coe_add]

/-! ## The law -/

/-- On real inputs the two arrangements agree. -/
theorem KerG_eq_RefG_real : KerG (cm X) (cm A) (cm Wr) (cv B) = RefG (cm X) (cm A) (cm Wr) (cv B) := by
  funext i
  obtain ⟨r, o, rfl⟩ : ∃ (r : Fin 8192) (o : Fin 128), i = ix2 r o := ⟨i 0, i 1, eq_ix2 i⟩
  show outK (cm X) (cm A) (cm Wr) (cv B) r o = outR (cm X) (cm A) (cm Wr) (cv B) r o
  rw [outK_coe, outR_coe]

/-- The algebraic law: where every input entry is a real number, the kernels' arrangement of the layer and the
    reference's give the same extended reals. -/
theorem KerG_eq_RefG (x : Mat 8192 128) (adj : Mat 8192 8192) (W : Mat 128 128) (b : Vect 128)
    (hx : ∀ i, x i ≠ ⊤ ∧ x i ≠ ⊥) (hadj : ∀ i, adj i ≠ ⊤ ∧ adj i ≠ ⊥) (hW : ∀ i, W i ≠ ⊤ ∧ W i ≠ ⊥)
    (hb : ∀ i, b i ≠ ⊤ ∧ b i ≠ ⊥) : KerG x adj W b = RefG x adj W b := by
  obtain ⟨X, rfl⟩ : ∃ X : RMat 8192 128, x = cm X :=
    ⟨fun i => (x i).toReal, funext fun i => (EReal.coe_toReal (hx i).1 (hx i).2).symm⟩
  obtain ⟨A, rfl⟩ : ∃ A : RMat 8192 8192, adj = cm A :=
    ⟨fun i => (adj i).toReal, funext fun i => (EReal.coe_toReal (hadj i).1 (hadj i).2).symm⟩
  obtain ⟨Wr, rfl⟩ : ∃ Wr : RMat 128 128, W = cm Wr :=
    ⟨fun i => (W i).toReal, funext fun i => (EReal.coe_toReal (hW i).1 (hW i).2).symm⟩
  obtain ⟨B, rfl⟩ : ∃ B : RVect 128, b = cv B :=
    ⟨fun i => (b i).toReal, funext fun i => (EReal.coe_toReal (hb i).1 (hb i).2).symm⟩
  exact KerG_eq_RefG_real X A Wr B

end Cert.Gcn

end
-- ==== Proof.RefSide.lean ====
/-
  The reference program's result, read one operation at a time, is the function `RefG` of its four arguments.
  Each stage is read at an index built from coordinates, so that the index each layout operation asks for is again
  an index built from coordinates.
-/
import proofs.«104426_j28389733827054_2_alg».proof.Proof.Gen.ReferenceIdeal.Read
import proofs.«104426_j28389733827054_2_alg».proof.Proof.RefSpec

noncomputable section

open scoped BigOperators

namespace Cert.ReferenceIdeal.RefValue

open Cert.ReferenceIdeal Cert.ReferenceIdeal.Read Cert.Gcn Idealize.ShloMosaic Idealize.ShloMosaic.ValueIdx

/-- The adjacency matrix with self loops. -/
theorem v6_eq (x1 : Mat 8192 8192) (r j : Fin 8192) :
    val_main_v6 (F := Ideal) x1 (ix2 r j) = aHat x1 r j := by
  rw [val_main_v6_apply, val_main_v5_apply, val_main_v4_apply, val_main_v3_apply, val_main_v2_apply,
    val_main_v0_apply, val_main_v1_apply, val_main_c_apply]
  rfl

/-- The row sums. -/
theorem v7_eq (x1 : Mat 8192 8192) (r : Fin 8192) :
    val_main_v7 (F := Ideal) x1 (ix1 r) = degR x1 r := by
  rw [val_main_v7_apply, val_main_cst_apply]
  refine congrArg (_ + ·) (Finset.sum_congr rfl fun k _ => ?_)
  have hk : idx_main_v7 (ix1 r) k = ix2 r k := by
    funext a; match a with | ⟨0, _⟩ => rfl | ⟨1, _⟩ => rfl
  rw [hk, v6_eq]

/-- The scales. -/
theorem v11_eq (x1 : Mat 8192 8192) (r : Fin 8192) :
    val_main_v11 (F := Ideal) x1 (ix1 r) = dinvR x1 r := by
  rw [val_main_v11_apply, val_main_v10_apply, val_main_call0_v0_apply, val_main_call0_v1_apply,
    val_main_call0_cst_apply, val_main_call1_v1_apply, val_main_call1_v0_apply, val_main_cst_1_apply,
    val_main_v9_apply, val_main_v8_apply, val_main_cst_0_apply, v7_eq]
  rfl

/-- The normalised adjacency matrix. -/
theorem v17_eq (x1 : Mat 8192 8192) (r j : Fin 8192) :
    val_main_v17 (F := Ideal) x1 (ix2 r j) = normR x1 r j := by
  have h1 : idx_main_v12 (idx_main_v13 (ix2 r j : S8192x8192.Idx)) = ix1 r := by
    funext a; match a with | ⟨0, _⟩ => rfl
  have h2 : idx_main_v15 (idx_main_v16 (ix2 r j : S8192x8192.Idx)) = ix1 j := by
    funext a; match a with | ⟨0, _⟩ => rfl
  rw [val_main_v17_apply, val_main_v14_apply, val_main_v13_apply, val_main_v12_apply, val_main_v16_apply,
    val_main_v15_apply, h1, h2, v6_eq, v11_eq, v11_eq]
  rfl

/-- The aggregated features. -/
theorem v18_eq (x0 : Mat 8192 128) (x1 : Mat 8192 8192) (r : Fin 8192) (c : Fin 128) :
    val_main_v18 (F := Ideal) x0 x1 (ix2 r c) = supR x0 x1 r c := by
  rw [val_main_v18_apply]
  refine Finset.sum_congr rfl fun k _ => ?_
  have hl : lidx_main_v18 (ix2 r c : S8192x128.Idx) k = ix2 r k := by
    funext a; match a with | ⟨0, _⟩ => rfl | ⟨1, _⟩ => rfl
  have hr : ridx_main_v18 (ix2 r c : S8192x128.Idx) k = ix2 k c := by
    funext a; match a with | ⟨0, _⟩ => rfl | ⟨1, _⟩ => rfl
  rw [hl, hr, v17_eq]

/-- The reference program's result is `RefG` of its arguments. -/
theorem ref_is_RefG (x0 : Mat 8192 128) (x1 : Mat 8192 8192) (x2 : Mat 128 128) (x3 : Vect 128) :
    val_main_v23 (F := Ideal) x0 x1 x2 x3 = RefG x0 x1 x2 x3 := by
  funext i
  obtain ⟨r, o, rfl⟩ : ∃ (r : Fin 8192) (o : Fin 128), i = ix2 r o := ⟨i 0, i 1, eq_ix2 i⟩
  have h3 : idx_main_v21 (idx_main_v22 (ix2 r o : S8192x128.Idx)) = ix1 o := by
    funext a; match a with | ⟨0, _⟩ => rfl
  rw [val_main_v23_apply, val_main_v22_apply, val_main_v21_apply, h3, val_main_v20_apply]
  show (∑ k : Fin 128, _) + x3 (ix1 o) = outR x0 x1 x2 x3 r o
  refine congrArg (· + _) (Finset.sum_congr rfl fun k _ => ?_)
  have hl : lidx_main_v20 (ix2 r o : S8192x128.Idx) k = ix2 r k := by
    funext a; match a with | ⟨0, _⟩ => rfl | ⟨1, _⟩ => rfl
  have hr : idx_main_v19 (ridx_main_v20 (ix2 r o : S8192x128.Idx) k) = ix2 o k := by
    funext a; match a with | ⟨0, _⟩ => rfl | ⟨1, _⟩ => rfl
  rw [val_main_v19_apply, hl, hr, v18_eq]

end Cert.ReferenceIdeal.RefValue

end
-- ==== Proof.Finite.lean ====
/-
  From the precondition to finiteness. The precondition's function answers one bit: the conjunction, over the four
  argument arrays, of "every entry has absolute value below plus infinity". Where that bit is one every entry of every
  array is a real number: neither plus nor minus infinity.
-/
import proofs.«104426_j28389733827054_2_alg».proof.Pre_finite_inputs
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Cert.Gcn

open Idealize.ShloMosaic Cert.Pre_finite_inputs

/-- The scalar shape has one index. -/
instance : Subsingleton S_.Idx := ⟨fun _ _ => funext fun d => d.elim0⟩

/-- An extended real whose absolute value compares below plus infinity is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  induction x using EReal.rec with
  | bot => exact absurd h (by simp [Ideal.cmpf_def, Ideal.cmp, Ideal.absf_def])
  | top => exact absurd h (by simp [Ideal.cmpf_def, Ideal.cmp, Ideal.absf_def])
  | coe r => exact ⟨EReal.coe_ne_top r, EReal.coe_ne_bot r⟩

/-- One array's test: where the conjunction over all its entries of "absolute value below plus infinity" is one,
    every entry is a real number. -/
theorem real_of_all {S : Shape} {axes : List (Fin S.rank)} (a : FVec Ideal S .f32)
    (hb : S_.BroadcastsInDim S (![] : Fin 0 → Fin S.rank)) (hr : S.ReducesTo axes S_) (hn : 0 < S_.numel)
    (e : Host.reduce IntOp.andi
        (cmpf .olt (Host.absf a) (broadcastInDim S ![] hb (constant (F := Ideal) S_ .f32 0x7F800000#32)))
        (constantI S_ 1 1#1) hr hn ValueIdx.ix0 = 1#1) (i : S.Idx) : a i ≠ ⊤ ∧ a i ≠ ⊥ := by
  have hi := Host.reduce_andi_all _ _ hr hn ValueIdx.ix0 e i
  refine real_of_abs_lt_inf (a i) ?_
  have hc : broadcastInDim S ![] hb (constant (F := Ideal) S_ .f32 0x7F800000#32) i
      = Ideal.ofBits .f32 0x7F800000#32 :=
    broadcastInDim_apply _ hb _ i ValueIdx.ix0 (fun d => d.elim0)
  rw [← hc]
  exact hi

/-- Where the precondition's function of four arrays is all ones, every entry of each array is a real number. -/
theorem finite_of_pre [Facts] (a0 : FVec Ideal S8192x128 .f32) (a1 : FVec Ideal S8192x8192 .f32)
    (a2 : FVec Ideal S128x128 .f32) (a3 : FVec Ideal S128 .f32)
    (h : fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) := by
  have h0 := congrFun h ValueIdx.ix0
  dsimp only [fn, fn_part1] at h0
  change IntOp.andi (IntOp.andi (IntOp.andi _ _) _) _ = 1#1 at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3⟩

end Cert.Gcn

end
-- ==== Proof.Claims.lean ====
/-
  The five claims.

  Both kernel programs run through their three segments (first region, two host operations, second region) to the end
  with every unscoped buffer at the last boundary's contents; no segment writes an argument array, so the arguments end
  as launched: the two frames. The reference's frame is its run with the result dropped. The idealization rewrote no
  operation. For the equivalence, the kernel's result array is the layer's result in the kernels' arrangement
  (row scales by reciprocal square root with infinities set to zero, sums taken run by run) and the reference's is the
  same layer in its own arrangement (the normalised matrix built first, scales by a power −1/2); under the precondition
  every input is a real number, and then the two arrangements are one function.
-/
import proofs.«104426_j28389733827054_2_alg».proof.Defs
import proofs.«104426_j28389733827054_2_alg».proof.Proof.Gen.Kernel
import proofs.«104426_j28389733827054_2_alg».proof.Proof.Gen.KernelIdeal
import proofs.«104426_j28389733827054_2_alg».proof.Proof.Gen.ReferenceIdeal
import proofs.«104426_j28389733827054_2_alg».proof.Proof.Gen.ReferenceIdeal.Run
import proofs.«104426_j28389733827054_2_alg».proof.Proof.Gen.ReferenceIdeal.Read
import proofs.«104426_j28389733827054_2_alg».proof.Proof.Gen.Pre_finite_inputs
import proofs.«104426_j28389733827054_2_alg».proof.Proof.KRun
import proofs.«104426_j28389733827054_2_alg».proof.Proof.KArgs
import proofs.«104426_j28389733827054_2_alg».proof.Proof.KIRun
import proofs.«104426_j28389733827054_2_alg».proof.Proof.KIArgs
import proofs.«104426_j28389733827054_2_alg».proof.Proof.KIEntry1
import proofs.«104426_j28389733827054_2_alg».proof.Proof.KIVal1
import proofs.«104426_j28389733827054_2_alg».proof.Proof.MathLaw
import proofs.«104426_j28389733827054_2_alg».proof.Proof.RefSide
import proofs.«104426_j28389733827054_2_alg».proof.Proof.Finite

noncomputable section

namespace Cert.Proof.Claims

open Idealize.ShloMosaic Idealize.ShloMosaic.TcCoe Idealize.SL.Sem Idealize.ShloMosaic.ValueIdx

theorem frame_p : Cert.frame_Kernel := fun m ρ _ =>
  (θ_run Cert.Kernel.defs _ _).mono (fun r h c =>
    ⟨(h c _ (Cert.Kernel.RunM.mem_uc Cert.Kernel.main_arg0 (by decide))).trans (Cert.Kernel.RunM.W4_main_arg0 m c),
     (h c _ (Cert.Kernel.RunM.mem_uc Cert.Kernel.main_arg1 (by decide))).trans (Cert.Kernel.RunM.W4_main_arg1 m c),
     (h c _ (Cert.Kernel.RunM.mem_uc Cert.Kernel.main_arg2 (by decide))).trans (Cert.Kernel.RunM.W4_main_arg2 m c),
     (h c _ (Cert.Kernel.RunM.mem_uc Cert.Kernel.main_arg3 (by decide))).trans (Cert.Kernel.RunM.W4_main_arg3 m c)⟩)
    (Cert.Kernel.RunM.run_main (F := Bits) m ρ)

theorem frame_pi : Cert.frame_KernelIdeal := fun m ρ _ =>
  (θ_run Cert.KernelIdeal.defs _ _).mono (fun r h c =>
    ⟨(h c _ (Cert.KernelIdeal.RunM.mem_uc Cert.KernelIdeal.main_arg0 (by decide))).trans (Cert.KernelIdeal.RunM.W4_main_arg0 m c),
     (h c _ (Cert.KernelIdeal.RunM.mem_uc Cert.KernelIdeal.main_arg1 (by decide))).trans (Cert.KernelIdeal.RunM.W4_main_arg1 m c),
     (h c _ (Cert.KernelIdeal.RunM.mem_uc Cert.KernelIdeal.main_arg2 (by decide))).trans (Cert.KernelIdeal.RunM.W4_main_arg2 m c),
     (h c _ (Cert.KernelIdeal.RunM.mem_uc Cert.KernelIdeal.main_arg3 (by decide))).trans (Cert.KernelIdeal.RunM.W4_main_arg3 m c)⟩)
    (Cert.KernelIdeal.RunM.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.RunM

/-- The second region's result array, from the launch memory: the layer's result in the kernels' arrangement. -/
theorem kernel_value (m : (ℓ : Loc nD τ sig) → Buf (Elt Ideal) ℓ) (c : Dev nD) :
    (Cert.KernelIdeal.Reg1.dat1 (VE1 m) c).arrAt 6 cfg1.N
      = Cert.Gcn.KerG (m ((c : Thread nD τ).loc main_arg0)) (m ((c : Thread nD τ).loc main_arg1))
          (m ((c : Thread nD τ).loc main_arg2)) (m ((c : Thread nD τ).loc main_arg3)) := by
  rw [Cert.KernelIdeal.Reg1V.final1_6]
  funext i
  unfold Cert.KernelIdeal.Reg1V.G6 Cert.Gcn.KerG
  rw [VE1_main_arg1 m c]
  exact Cert.Gcn.outG_eq_outK _ _ _ _ _ _ _ _
    (fun r q => congrFun (VE1_main_v0_0 m c) (ix2 r q)) (fun r q => congrFun (VE1_main_v0_1 m c) (ix2 r q))
    (fun q o => VE1_main_v1 m c q o) (fun o => VE1_main_v2 m c o) (i 0) (i 1)
end

theorem algebraic : Cert.algebraic_KernelIdeal_ReferenceIdeal := by
  intro m ρ m' ρ' hpre hagree
  refine ⟨fun c => Cert.Gcn.KerG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.RunM.run_main (F := Ideal) m ρ)
    · exact ((h c _ (Cert.KernelIdeal.RunM.mem_uc Cert.KernelIdeal.main_v3 (by decide))).trans (Cert.KernelIdeal.RunM.W4_main_v3 m c)).trans (kernel_value m c)
    · exact (h c _ (Cert.KernelIdeal.RunM.mem_uc Cert.KernelIdeal.main_arg0 (by decide))).trans (Cert.KernelIdeal.RunM.W4_main_arg0 m c)
    · exact (h c _ (Cert.KernelIdeal.RunM.mem_uc Cert.KernelIdeal.main_arg1 (by decide))).trans (Cert.KernelIdeal.RunM.W4_main_arg1 m c)
    · exact (h c _ (Cert.KernelIdeal.RunM.mem_uc Cert.KernelIdeal.main_arg2 (by decide))).trans (Cert.KernelIdeal.RunM.W4_main_arg2 m c)
    · exact (h c _ (Cert.KernelIdeal.RunM.mem_uc Cert.KernelIdeal.main_arg3 (by decide))).trans (Cert.KernelIdeal.RunM.W4_main_arg3 m c)
  · refine (θ_run Cert.ReferenceIdeal.defs _ _).mono (fun r h c => ⟨(h c).1.trans ?_, (h c).2⟩)
      (Cert.ReferenceIdeal.Value.run (F := Ideal) m' ρ')
    obtain ⟨hx, hadj, hW, hb⟩ := Cert.Gcn.finite_of_pre _ _ _ _ (hpre c)
    rw [(hagree c).1, (hagree c).2.1, (hagree c).2.2.1, (hagree c).2.2.2, Cert.ReferenceIdeal.Read.val_main_v23_eq,
      Cert.ReferenceIdeal.RefValue.ref_is_RefG]
    exact (Cert.Gcn.KerG_eq_RefG _ _ _ _ hx hadj hW hb).symm

end Cert.Proof.Claims

end
-- ==== Proof.lean ====
/-
  A dense graph-convolution layer: a pair of kernels against its plain reference.

  With A the adjacency matrix, deg r = (sum of row r of A) + 1 and d r = deg r ^ (−1/2) (set to 0 where that is infinite),
  the layer is out = (D (A + I) D x) Wᵀ + b, D the diagonal matrix of the d r. The kernels compute it as
  D ((A + I) (D x)): a first kernel sums each row of A in eight runs, takes the reciprocal square root and leaves D x and
  the row scales; a second kernel adds to D x the products A (D x) in four runs of columns, scales the rows again and
  applies the dense layer. The reference builds the normalised matrix D (A + I) D first. On the extended reals the two
  are one function as soon as every input is a real number, which the precondition states. The claim is the conjunction
  of the three programs' frames, the idealization's soundness (it rewrote nothing) and that equivalence; each is proved
  in Proof/Claims.lean from the programs' runs.
-/
import proofs.«104426_j28389733827054_2_alg».proof.Defs
import proofs.«104426_j28389733827054_2_alg».proof.Proof.Gen.Kernel
import proofs.«104426_j28389733827054_2_alg».proof.Proof.Gen.Kernel.Skeleton
import proofs.«104426_j28389733827054_2_alg».proof.Proof.Gen.Kernel.Launch
import proofs.«104426_j28389733827054_2_alg».proof.Proof.Gen.Kernel.Regions
import proofs.«104426_j28389733827054_2_alg».proof.Proof.Gen.Kernel.Points
import proofs.«104426_j28389733827054_2_alg».proof.Proof.Gen.KernelIdeal
import proofs.«104426_j28389733827054_2_alg».proof.Proof.Gen.KernelIdeal.Skeleton
import proofs.«104426_j28389733827054_2_alg».proof.Proof.Gen.KernelIdeal.Launch
import proofs.«104426_j28389733827054_2_alg».proof.Proof.Gen.KernelIdeal.Regions
import proofs.«104426_j28389733827054_2_alg».proof.Proof.Gen.KernelIdeal.Points
import proofs.«104426_j28389733827054_2_alg».proof.Proof.Gen.ReferenceIdeal
import proofs.«104426_j28389733827054_2_alg».proof.Proof.Gen.ReferenceIdeal.Run
import proofs.«104426_j28389733827054_2_alg».proof.Proof.Gen.ReferenceIdeal.Read
import proofs.«104426_j28389733827054_2_alg».proof.Proof.Gen.Pre_finite_inputs
import proofs.«104426_j28389733827054_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
